-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x3x4096 : Shape := ⟨3, ![8, 3, 4096]⟩
abbrev S8x4096x1 : Shape := ⟨3, ![8, 4096, 1]⟩
abbrev S1x1024x3 : Shape := ⟨3, ![1, 1024, 3]⟩
abbrev S1x3x1024 : Shape := ⟨3, ![1, 3, 1024]⟩
abbrev S1x1024x1 : Shape := ⟨3, ![1, 1024, 1]⟩
abbrev S1x4096x1 : Shape := ⟨3, ![1, 4096, 1]⟩
abbrev S1024x1 : Shape := ⟨2, ![1024, 1]⟩
abbrev S1x4096 : Shape := ⟨2, ![1, 4096]⟩
abbrev S1024x3 : Shape := ⟨2, ![1024, 3]⟩
abbrev S3x1024 : Shape := ⟨2, ![3, 1024]⟩
abbrev S1x1024 : Shape := ⟨2, ![1, 1024]⟩
abbrev S1024x1024 : Shape := ⟨2, ![1024, 1024]⟩
abbrev S1024 : Shape := ⟨1, ![1024]⟩
abbrev S4096 : Shape := ⟨1, ![4096]⟩
abbrev S_ : Shape := ⟨0, ![]⟩

abbrev nBuf : Space → Nat
  | .hbm => 16
  | .vmem => 10
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x3x4096, .f32⟩
  | .hbm, ⟨3, _⟩ => ⟨S8x4096x1, .f32⟩
  | .hbm, ⟨4, _⟩ => ⟨S8x4096x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x1024, .f32⟩
  | .local _ .vmem, ⟨3, _⟩ => ⟨S1x3x1024, .f32⟩
  | .local _ .vmem, ⟨4, _⟩ => ⟨S1x1024x1, .f32⟩
  | .local _ .vmem, ⟨5, _⟩ => ⟨S1x1024x1, .f32⟩
  | .local _ .vmem, ⟨6, _⟩ => ⟨S1x4096x1, .f32⟩
  | .local _ .vmem, ⟨7, _⟩ => ⟨S1x4096x1, .f32⟩
  | .local _ .vmem, ⟨8, _⟩ => ⟨S1024x1, .f32⟩
  | .local _ .vmem, ⟨9, _⟩ => ⟨S1x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let arg2 : BitVec 32 := BitVec.ofNat 32 (i 2).val
  let c1024_i32 : BitVec 32 := 1024#32
  let v56 : BitVec 32 := Scalar.muli arg2 c1024_i32
  v56
def k0_off1 (i : grid0.Coords) : Fin 2 → Nat :=
  let c0_16 : Index := 0#32
  let arg2 : BitVec 32 := BitVec.ofNat 32 (i 2).val
  let c1024_i32 : BitVec 32 := 1024#32
  let v56 : BitVec 32 := Scalar.muli arg2 c1024_i32
  let v57 : BitVec 32 := v56
  let v58 : Index := Scalar.indexCast v57
  ![0, v58.toNat]
def k0_cond3 (i : grid0.Coords) : BitVec 1 :=
  let arg2 : BitVec 32 := BitVec.ofNat 32 (i 2).val
  let c3_i32 : BitVec 32 := 3#32
  let v65 : BitVec 1 := Scalar.cmpi .eq arg2 c3_i32
  let v66 : BitVec 32 := Scalar.extui v65
  let c0_i32_18 : BitVec 32 := 0#32
  let v67 : BitVec 1 := Scalar.cmpi .ne v66 c0_i32_18
  v67

def k0_cond4 (i : grid0.Coords) : BitVec 1 :=
  let arg1 : BitVec 32 := BitVec.ofNat 32 (i 1).val
  let c3_i32_19 : BitVec 32 := 3#32
  let v68 : BitVec 1 := Scalar.cmpi .eq arg1 c3_i32_19
  let arg2 : BitVec 32 := BitVec.ofNat 32 (i 2).val
  let c3_i32_20 : BitVec 32 := 3#32
  let v69 : BitVec 1 := Scalar.cmpi .eq arg2 c3_i32_20
  let v70 : BitVec 1 := Scalar.andi v68 v69
  let v71 : BitVec 32 := Scalar.extui v70
  let c0_i32_21 : BitVec 32 := 0#32
  let v72 : BitVec 1 := Scalar.cmpi .ne v71 c0_i32_21
  v72

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  transposes_S8x4096x3_S8x3x4096_0_2_1 : S8x4096x3.Transposes [0, 2, 1] S8x3x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  slices_S1024x3_o0_0_S1024x1 : S1024x3.Slices ![0, 0] S1024x1
  slices_S1024x3_o0_1_S1024x1 : S1024x3.Slices ![0, 1] S1024x1
  slices_S1024x3_o0_2_S1024x1 : S1024x3.Slices ![0, 2] S1024x1
  slices_S3x1024_o0_0_S1x1024 : S3x1024.Slices ![0, 0] S1x1024
  slices_S3x1024_o1_0_S1x1024 : S3x1024.Slices ![1, 0] S1x1024
  slices_S3x1024_o2_0_S1x1024 : S3x1024.Slices ![2, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reduces_S1024x1024_S1024_2 : S1024x1024.Reduces [0] S1024
  shapeCasts_S1024_S1x1024 : S1024.ShapeCasts S1x1024
  h_S1x1024 : 0 < S1x1024.numel
  shapeCasts_S1x1024_S1x1024 : S1x1024.ShapeCasts S1x1024
  shapeCasts_S1024x1_S1024 : S1024x1.ShapeCasts S1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024 : S1x1024x1.ShapeCasts S1024
  shapeCasts_S1024_S1x1024x1 : S1024.ShapeCasts S1x1024x1
  shapeCasts_S1x4096_S4096 : S1x4096.ShapeCasts S4096
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096 : S1x4096x1.ShapeCasts S4096
  shapeCasts_S4096_S1x4096x1 : S4096.ShapeCasts S1x4096x1
  reducesTo_S8x4096x1_S_d0_1_2 : S8x4096x1.ReducesTo [0, 1, 2] S_
  h_S_ : 0 < S_.numel
  hrank0 : 0 < grid0.rank
  k0_mult1_dvd : ∀ i : grid0.Coords, 1024 ∣ (k0_mult1 i).toNat
  k0_off1_inb : ∀ i : grid0.Coords, ∀ a, (k0_off1 i) a + S1x1024.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S8x4096x3.size a
  hwx0_0 : ∀ i : grid0.Coords, EltTy.bits .f32 = 32 ∨ (Rect.block (s := S8x4096x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S8x3x4096.size a
  hwx0_1 : ∀ i : grid0.Coords, EltTy.bits .f32 = 32 ∨ (Rect.block (s := S8x3x4096) S1x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S8x4096x1.size a
  hwx0_2 : ∀ i : grid0.Coords, EltTy.bits .f32 = 32 ∨ (Rect.block (s := S8x4096x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x1.size a ≤ S8x4096x1.size a
  hwx0_3 : ∀ i : grid0.Coords, EltTy.bits .f32 = 32 ∨ (Rect.block (s := S8x4096x1) S1x4096x1.size (cc0_transform_3 i) (hinb0_3 i)).WholeWords (EltTy.packing .f32)

variable [Facts₀]

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x4096x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S8 : Shape := ⟨1, ![8]⟩

abbrev nBuf : Space → Nat
  | .hbm => 47
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S_, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8x4096, .f32⟩
  | .hbm, ⟨31, _⟩ => ⟨S_, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩
abbrev main_cst_11 : Ref sig .tc := ⟨.hbm, 40, rfl⟩
abbrev main_v26 : Ref sig .tc := ⟨.hbm, 41, rfl⟩
abbrev main_cst_12 : Ref sig .tc := ⟨.hbm, 42, rfl⟩
abbrev main_v27 : Ref sig .tc := ⟨.hbm, 43, rfl⟩
abbrev main_v28 : Ref sig .tc := ⟨.hbm, 44, rfl⟩
abbrev main_cst_13 : Ref sig .tc := ⟨.hbm, 45, rfl⟩
abbrev main_v29 : Ref sig .tc := ⟨.hbm, 46, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096_S8_d1 : S8x4096.ReducesTo [1] S8
  bcast_S_S8 : S_.BroadcastsInDim S8 (![] : Fin 0 → Fin S8.rank)
  reducesTo_S8x4096x4096_S8x4096_d1 : S8x4096x4096.ReducesTo [1] S8x4096
  reducesTo_S8_S_d0 : S8.ReducesTo [0] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Pieces.lean ====
/-
  What one grid point leaves in the two accumulators and in the two output blocks, as vectors.

  The column accumulator (1024 × 1: one entry per target point of the block) is overwritten whole by its entrywise minimum
  with the tile's row minima (`newCol`); a point that starts a sweep over the predicted points first resets it to +∞.
  The row accumulator (1 × 4096: one entry per predicted point of the batch) has only the 1024 entries of the current tile
  of predicted points replaced, by their minimum with the tile's column minima (`rowUpd`); the first point of a batch first
  resets all of it to +∞. A point that ends a sweep stores the square roots of the accumulator it has just updated.
-/
import proofs.«156787_j1924145348887_2_alg».proof.Proof.Gen.KernelIdeal.Frame
import Idealize.ShloMosaic.Lib.Pipeline.Value
import Idealize.ShloMosaic.Lib.WritesUnit
import Idealize.ShloMosaic.Lib.Tactic

set_option maxRecDepth 16384

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The column accumulator after a point, from its contents `s` before: entrywise minimum with the tile's row minima. -/
abbrev newCol (x0 : Vec F S1x1024x3 .f32) (x1 : Vec F S1x3x1024 .f32) (s : Vec F S1024x1 .f32) : Vec F S1024x1 .f32 :=
  k0_pay2 (k0_pay16 x0 x1) (k0_pay17 x0 x1) k0_pay18 s

/-- The 1024 entries of the row accumulator that belong to the point's tile of predicted points. -/
abbrev rowSlice (i : grid0.Coords) (s : Vec F S1x4096 .f32) : Vec F S1x1024 .f32 :=
  View.ld s (Rect.unit (s := S1x4096) (k0_off1 i) S1x1024.size (k0_off1_inb i))

/-- Those entries after the point: entrywise minimum with the tile's column minima. -/
abbrev newRow (x0 : Vec F S1x1024x3 .f32) (x1 : Vec F S1x3x1024 .f32) (sl : Vec F S1x1024 .f32) : Vec F S1x1024 .f32 :=
  k0_pay3 (k0_pay16 x0 x1) (k0_pay17 x0 x1) k0_pay18 sl

/-- A vector of 4096 entries with the 1024 entries of tile `i 2` replaced by `w`. -/
def patch (i : grid0.Coords) (s : Vec F S1x4096 .f32) (w : Vec F S1x1024 .f32) : Vec F S1x4096 .f32 := fun y =>
  if h : ∀ a, (![0, 1024 * (i 2).val] : Fin 2 → ℕ) a ≤ (y a).val ∧ (y a).val < (![0, 1024 * (i 2).val] : Fin 2 → ℕ) a + S1x1024.size a then
    w (Rect.unitLocal (s := S1x4096) (off := ![0, 1024 * (i 2).val]) (size := S1x1024.size) y h)
  else s y

/-- The row accumulator after a point, from its contents `s` before. -/
abbrev rowUpd (i : grid0.Coords) (x0 : Vec F S1x1024x3 .f32) (x1 : Vec F S1x3x1024 .f32) (s : Vec F S1x4096 .f32) : Vec F S1x4096 .f32 :=
  patch i s (newRow x0 x1 (rowSlice i s))

/-- One store of 1024 entries into a buffer holding `s` leaves `s` patched. -/
theorem read_slice_store (i : grid0.Coords) (a8 : Memref sig .tc .vmem S1x4096 .f32) (h8 : a8.IsWhole) (s : Vec F S1x4096 .f32)
    (w : Vec F S1x1024 .f32) :
    a8.view.read (Elt F) (a8.view.writes (Elt F) (h8.unread s)
      [(⟨Rect.unit (s := S1x4096) (k0_off1 i) S1x1024.size (k0_off1_inb i), w⟩ : View.Piece (Elt F) S1x4096 .f32)]) = patch i s w := by
  funext y
  rw [View.read_writes_cons_unit a8.view (h8.unread s) (k0_off1_inb i) w [] y (k0_off1_eq i)]
  simp only [View.writes_nil, h8.read_unread]
  rfl

theorem sB_0 (c : Dev nD) (i : grid0.Coords) (a3 : Memref sig .tc .vmem S1x1024x3 .f32) (h3 : a3.IsWhole) (a4 : Memref sig .tc .vmem S1x3x1024 .f32) (h4 : a4.IsWhole) (a5 : Memref sig .tc .vmem S1x1024x1 .f32) (h5 : a5.IsWhole) (a6 : Memref sig .tc .vmem S1x4096x1 .f32) (h6 : a6.IsWhole) (a7 : Memref sig .tc .vmem S1024x1 .f32) (h7 : a7.IsWhole) (a8 : Memref sig .tc .vmem S1x4096 .f32) (h8 : a8.IsWhole) (hc0 : ¬cond0_0 i) (hc1 : ¬cond0_1 i) (hc2 : ¬cond0_2 i) (hc3 : ¬cond0_3 i)
    (x0 : Vec F S1x1024x3 .f32) (x1 : Vec F S1x3x1024 .f32) (xs0 : Vec F S1024x1 .f32) (xs1 : Vec F S1x4096 .f32) :
    sout0_B_0 c i a3 h3 a4 h4 a5 h5 a6 h6 a7 h7 a8 h8 hc0 hc1 hc2 hc3 x0 x1 xs0 xs1 = newCol x0 x1 xs0 := by
  unfold sout0_B_0
  rw [View.read_writes_eq_canon _ _ _ (scover0_B_0 c i a3 h3 a4 h4 a5 h5 a6 h6 a7 h7 a8 h8 hc0 hc1 hc2 hc3 x0 x1 xs0 xs1)]
  unfold kernelRun0_B
  dsimp only
  sl_unfold_run_names
  rw [View.canon_unit_zero hz2]
  simp only [View.readAt_eq_ld, h3.read_unread, h4.read_unread, View.ld_unit_zero (S := S1x1024x3) hz3, View.ld_unit_zero (S := S1x3x1024) hz3, h7.read_unread, View.ld_unit_zero (S := S1024x1) hz2]

theorem sB_1 (c : Dev nD) (i : grid0.Coords) (a3 : Memref sig .tc .vmem S1x1024x3 .f32) (h3 : a3.IsWhole) (a4 : Memref sig .tc .vmem S1x3x1024 .f32) (h4 : a4.IsWhole) (a5 : Memref sig .tc .vmem S1x1024x1 .f32) (h5 : a5.IsWhole) (a6 : Memref sig .tc .vmem S1x4096x1 .f32) (h6 : a6.IsWhole) (a7 : Memref sig .tc .vmem S1024x1 .f32) (h7 : a7.IsWhole) (a8 : Memref sig .tc .vmem S1x4096 .f32) (h8 : a8.IsWhole) (hc0 : ¬cond0_0 i) (hc1 : ¬cond0_1 i) (hc2 : ¬cond0_2 i) (hc3 : ¬cond0_3 i)
    (x0 : Vec F S1x1024x3 .f32) (x1 : Vec F S1x3x1024 .f32) (xs0 : Vec F S1024x1 .f32) (xs1 : Vec F S1x4096 .f32) :
    sout0_B_1 c i a3 h3 a4 h4 a5 h5 a6 h6 a7 h7 a8 h8 hc0 hc1 hc2 hc3 x0 x1 xs0 xs1 = rowUpd i x0 x1 xs1 := by
  unfold sout0_B_1 kernelRun0_B
  dsimp only
  sl_unfold_run_names
  simp only [View.readAt_eq_ld, h3.read_unread, h4.read_unread, View.ld_unit_zero (S := S1x1024x3) hz3, View.ld_unit_zero (S := S1x3x1024) hz3, h8.read_unread]
  exact read_slice_store i a8 h8 xs1 _

theorem sC_0 (c : Dev nD) (i : grid0.Coords) (a3 : Memref sig .tc .vmem S1x1024x3 .f32) (h3 : a3.IsWhole) (a4 : Memref sig .tc .vmem S1x3x1024 .f32) (h4 : a4.IsWhole) (a5 : Memref sig .tc .vmem S1x1024x1 .f32) (h5 : a5.IsWhole) (a6 : Memref sig .tc .vmem S1x4096x1 .f32) (h6 : a6.IsWhole) (a7 : Memref sig .tc .vmem S1024x1 .f32) (h7 : a7.IsWhole) (a8 : Memref sig .tc .vmem S1x4096 .f32) (h8 : a8.IsWhole) (hc0 : ¬cond0_0 i) (hc1 : ¬cond0_1 i) (hc2 : cond0_2 i) (hc3 : ¬cond0_3 i)
    (x0 : Vec F S1x1024x3 .f32) (x1 : Vec F S1x3x1024 .f32) (xs0 : Vec F S1024x1 .f32) (xs1 : Vec F S1x4096 .f32) :
    sout0_C_0 c i a3 h3 a4 h4 a5 h5 a6 h6 a7 h7 a8 h8 hc0 hc1 hc2 hc3 x0 x1 xs0 xs1 = newCol x0 x1 xs0 := by
  unfold sout0_C_0
  rw [View.read_writes_eq_canon _ _ _ (scover0_C_0 c i a3 h3 a4 h4 a5 h5 a6 h6 a7 h7 a8 h8 hc0 hc1 hc2 hc3 x0 x1 xs0 xs1)]
  unfold kernelRun0_C
  dsimp only
  sl_unfold_run_names
  rw [View.canon_unit_zero hz2]
  simp only [View.readAt_eq_ld, h3.read_unread, h4.read_unread, View.ld_unit_zero (S := S1x1024x3) hz3, View.ld_unit_zero (S := S1x3x1024) hz3, h7.read_unread, View.ld_unit_zero (S := S1024x1) hz2]

theorem sC_1 (c : Dev nD) (i : grid0.Coords) (a3 : Memref sig .tc .vmem S1x1024x3 .f32) (h3 : a3.IsWhole) (a4 : Memref sig .tc .vmem S1x3x1024 .f32) (h4 : a4.IsWhole) (a5 : Memref sig .tc .vmem S1x1024x1 .f32) (h5 : a5.IsWhole) (a6 : Memref sig .tc .vmem S1x4096x1 .f32) (h6 : a6.IsWhole) (a7 : Memref sig .tc .vmem S1024x1 .f32) (h7 : a7.IsWhole) (a8 : Memref sig .tc .vmem S1x4096 .f32) (h8 : a8.IsWhole) (hc0 : ¬cond0_0 i) (hc1 : ¬cond0_1 i) (hc2 : cond0_2 i) (hc3 : ¬cond0_3 i)
    (x0 : Vec F S1x1024x3 .f32) (x1 : Vec F S1x3x1024 .f32) (xs0 : Vec F S1024x1 .f32) (xs1 : Vec F S1x4096 .f32) :
    sout0_C_1 c i a3 h3 a4 h4 a5 h5 a6 h6 a7 h7 a8 h8 hc0 hc1 hc2 hc3 x0 x1 xs0 xs1 = rowUpd i x0 x1 xs1 := by
  unfold sout0_C_1 kernelRun0_C
  dsimp only
  sl_unfold_run_names
  simp only [View.readAt_eq_ld, h3.read_unread, h4.read_unread, View.ld_unit_zero (S := S1x1024x3) hz3, View.ld_unit_zero (S := S1x3x1024) hz3, h8.read_unread]
  exact read_slice_store i a8 h8 xs1 _

theorem oC_2 (c : Dev nD) (i : grid0.Coords) (a3 : Memref sig .tc .vmem S1x1024x3 .f32) (h3 : a3.IsWhole) (a4 : Memref sig .tc .vmem S1x3x1024 .f32) (h4 : a4.IsWhole) (a5 : Memref sig .tc .vmem S1x1024x1 .f32) (h5 : a5.IsWhole) (a6 : Memref sig .tc .vmem S1x4096x1 .f32) (h6 : a6.IsWhole) (a7 : Memref sig .tc .vmem S1024x1 .f32) (h7 : a7.IsWhole) (a8 : Memref sig .tc .vmem S1x4096 .f32) (h8 : a8.IsWhole) (hc0 : ¬cond0_0 i) (hc1 : ¬cond0_1 i) (hc2 : cond0_2 i) (hc3 : ¬cond0_3 i)
    (x0 : Vec F S1x1024x3 .f32) (x1 : Vec F S1x3x1024 .f32) (xs0 : Vec F S1024x1 .f32) (xs1 : Vec F S1x4096 .f32) :
    out0_C_2 c i a3 h3 a4 h4 a5 h5 a6 h6 a7 h7 a8 h8 hc0 hc1 hc2 hc3 x0 x1 xs0 xs1 = k0_pay4 (newCol x0 x1 xs0) := by
  unfold out0_C_2
  rw [View.read_writes_eq_canon _ _ _ (cover0_C_2 c i a3 h3 a4 h4 a5 h5 a6 h6 a7 h7 a8 h8 hc0 hc1 hc2 hc3 x0 x1 xs0 xs1)]
  unfold kernelRun0_C
  dsimp only
  sl_unfold_run_names
  rw [View.canon_unit_zero hz3, View.readCov_unit_zero _ hz2]
  simp only [View.readAt_eq_ld, h3.read_unread, h4.read_unread, View.ld_unit_zero (S := S1x1024x3) hz3, View.ld_unit_zero (S := S1x3x1024) hz3, h7.read_unread, View.ld_unit_zero (S := S1024x1) hz2]

theorem sE_0 (c : Dev nD) (i : grid0.Coords) (a3 : Memref sig .tc .vmem S1x1024x3 .f32) (h3 : a3.IsWhole) (a4 : Memref sig .tc .vmem S1x3x1024 .f32) (h4 : a4.IsWhole) (a5 : Memref sig .tc .vmem S1x1024x1 .f32) (h5 : a5.IsWhole) (a6 : Memref sig .tc .vmem S1x4096x1 .f32) (h6 : a6.IsWhole) (a7 : Memref sig .tc .vmem S1024x1 .f32) (h7 : a7.IsWhole) (a8 : Memref sig .tc .vmem S1x4096 .f32) (h8 : a8.IsWhole) (hc0 : ¬cond0_0 i) (hc1 : ¬cond0_1 i) (hc2 : cond0_2 i) (hc3 : cond0_3 i)
    (x0 : Vec F S1x1024x3 .f32) (x1 : Vec F S1x3x1024 .f32) (xs0 : Vec F S1024x1 .f32) (xs1 : Vec F S1x4096 .f32) :
    sout0_E_0 c i a3 h3 a4 h4 a5 h5 a6 h6 a7 h7 a8 h8 hc0 hc1 hc2 hc3 x0 x1 xs0 xs1 = newCol x0 x1 xs0 := by
  unfold sout0_E_0
  rw [View.read_writes_eq_canon _ _ _ (scover0_E_0 c i a3 h3 a4 h4 a5 h5 a6 h6 a7 h7 a8 h8 hc0 hc1 hc2 hc3 x0 x1 xs0 xs1)]
  unfold kernelRun0_E
  dsimp only
  sl_unfold_run_names
  rw [View.canon_unit_zero hz2]
  simp only [View.readAt_eq_ld, h3.read_unread, h4.read_unread, View.ld_unit_zero (S := S1x1024x3) hz3, View.ld_unit_zero (S := S1x3x1024) hz3, h7.read_unread, View.ld_unit_zero (S := S1024x1) hz2]

theorem sE_1 (c : Dev nD) (i : grid0.Coords) (a3 : Memref sig .tc .vmem S1x1024x3 .f32) (h3 : a3.IsWhole) (a4 : Memref sig .tc .vmem S1x3x1024 .f32) (h4 : a4.IsWhole) (a5 : Memref sig .tc .vmem S1x1024x1 .f32) (h5 : a5.IsWhole) (a6 : Memref sig .tc .vmem S1x4096x1 .f32) (h6 : a6.IsWhole) (a7 : Memref sig .tc .vmem S1024x1 .f32) (h7 : a7.IsWhole) (a8 : Memref sig .tc .vmem S1x4096 .f32) (h8 : a8.IsWhole) (hc0 : ¬cond0_0 i) (hc1 : ¬cond0_1 i) (hc2 : cond0_2 i) (hc3 : cond0_3 i)
    (x0 : Vec F S1x1024x3 .f32) (x1 : Vec F S1x3x1024 .f32) (xs0 : Vec F S1024x1 .f32) (xs1 : Vec F S1x4096 .f32) :
    sout0_E_1 c i a3 h3 a4 h4 a5 h5 a6 h6 a7 h7 a8 h8 hc0 hc1 hc2 hc3 x0 x1 xs0 xs1 = rowUpd i x0 x1 xs1 := by
  unfold sout0_E_1 kernelRun0_E
  dsimp only
  sl_unfold_run_names
  simp only [View.readAt_eq_ld, h3.read_unread, h4.read_unread, View.ld_unit_zero (S := S1x1024x3) hz3, View.ld_unit_zero (S := S1x3x1024) hz3, h8.read_unread]
  exact read_slice_store i a8 h8 xs1 _

theorem oE_2 (c : Dev nD) (i : grid0.Coords) (a3 : Memref sig .tc .vmem S1x1024x3 .f32) (h3 : a3.IsWhole) (a4 : Memref sig .tc .vmem S1x3x1024 .f32) (h4 : a4.IsWhole) (a5 : Memref sig .tc .vmem S1x1024x1 .f32) (h5 : a5.IsWhole) (a6 : Memref sig .tc .vmem S1x4096x1 .f32) (h6 : a6.IsWhole) (a7 : Memref sig .tc .vmem S1024x1 .f32) (h7 : a7.IsWhole) (a8 : Memref sig .tc .vmem S1x4096 .f32) (h8 : a8.IsWhole) (hc0 : ¬cond0_0 i) (hc1 : ¬cond0_1 i) (hc2 : cond0_2 i) (hc3 : cond0_3 i)
    (x0 : Vec F S1x1024x3 .f32) (x1 : Vec F S1x3x1024 .f32) (xs0 : Vec F S1024x1 .f32) (xs1 : Vec F S1x4096 .f32) :
    out0_E_2 c i a3 h3 a4 h4 a5 h5 a6 h6 a7 h7 a8 h8 hc0 hc1 hc2 hc3 x0 x1 xs0 xs1 = k0_pay4 (newCol x0 x1 xs0) := by
  unfold out0_E_2
  rw [View.read_writes_eq_canon _ _ _ (cover0_E_2 c i a3 h3 a4 h4 a5 h5 a6 h6 a7 h7 a8 h8 hc0 hc1 hc2 hc3 x0 x1 xs0 xs1)]
  unfold kernelRun0_E
  dsimp only
  sl_unfold_run_names
  rw [View.canon_unit_zero hz3, View.readCov_unit_zero _ hz2]
  simp only [View.readAt_eq_ld, h3.read_unread, h4.read_unread, View.ld_unit_zero (S := S1x1024x3) hz3, View.ld_unit_zero (S := S1x3x1024) hz3, h7.read_unread, View.ld_unit_zero (S := S1024x1) hz2]

theorem oE_3 (c : Dev nD) (i : grid0.Coords) (a3 : Memref sig .tc .vmem S1x1024x3 .f32) (h3 : a3.IsWhole) (a4 : Memref sig .tc .vmem S1x3x1024 .f32) (h4 : a4.IsWhole) (a5 : Memref sig .tc .vmem S1x1024x1 .f32) (h5 : a5.IsWhole) (a6 : Memref sig .tc .vmem S1x4096x1 .f32) (h6 : a6.IsWhole) (a7 : Memref sig .tc .vmem S1024x1 .f32) (h7 : a7.IsWhole) (a8 : Memref sig .tc .vmem S1x4096 .f32) (h8 : a8.IsWhole) (hc0 : ¬cond0_0 i) (hc1 : ¬cond0_1 i) (hc2 : cond0_2 i) (hc3 : cond0_3 i)
    (x0 : Vec F S1x1024x3 .f32) (x1 : Vec F S1x3x1024 .f32) (xs0 : Vec F S1024x1 .f32) (xs1 : Vec F S1x4096 .f32) :
    out0_E_3 c i a3 h3 a4 h4 a5 h5 a6 h6 a7 h7 a8 h8 hc0 hc1 hc2 hc3 x0 x1 xs0 xs1 = k0_pay5 (rowUpd i x0 x1 xs1) := by
  unfold out0_E_3
  rw [View.read_writes_eq_canon _ _ _ (cover0_E_3 c i a3 h3 a4 h4 a5 h5 a6 h6 a7 h7 a8 h8 hc0 hc1 hc2 hc3 x0 x1 xs0 xs1)]
  unfold kernelRun0_E
  dsimp only
  sl_unfold_run_names
  rw [View.canon_unit_zero hz3]
  simp only [View.readAt_eq_ld, h3.read_unread, h4.read_unread, View.ld_unit_zero (S := S1x1024x3) hz3, View.ld_unit_zero (S := S1x3x1024) hz3, h8.read_unread, View.ld_unit_zero (S := S1x4096) hz2]
  exact congrArg k0_pay5 (read_slice_store i a8 h8 xs1 _)

theorem sD_0 (c : Dev nD) (i : grid0.Coords) (a3 : Memref sig .tc .vmem S1x1024x3 .f32) (h3 : a3.IsWhole) (a4 : Memref sig .tc .vmem S1x3x1024 .f32) (h4 : a4.IsWhole) (a5 : Memref sig .tc .vmem S1x1024x1 .f32) (h5 : a5.IsWhole) (a6 : Memref sig .tc .vmem S1x4096x1 .f32) (h6 : a6.IsWhole) (a7 : Memref sig .tc .vmem S1024x1 .f32) (h7 : a7.IsWhole) (a8 : Memref sig .tc .vmem S1x4096 .f32) (h8 : a8.IsWhole) (hc0 : ¬cond0_0 i) (hc1 : cond0_1 i) (hc2 : ¬cond0_2 i) (hc3 : ¬cond0_3 i)
    (x0 : Vec F S1x1024x3 .f32) (x1 : Vec F S1x3x1024 .f32) (xs1 : Vec F S1x4096 .f32) :
    sout0_D_0 c i a3 h3 a4 h4 a5 h5 a6 h6 a7 h7 a8 h8 hc0 hc1 hc2 hc3 x0 x1 xs1 = newCol x0 x1 k0_pay7 := by
  unfold sout0_D_0
  rw [View.read_writes_eq_canon _ _ _ (scover0_D_0 c i a3 h3 a4 h4 a5 h5 a6 h6 a7 h7 a8 h8 hc0 hc1 hc2 hc3 x0 x1 xs1)]
  unfold kernelRun0_D
  dsimp only
  sl_unfold_run_names
  rw [View.canon_cons_unit_zero (S := S1024x1) hz2, View.readCov_unit_zero _ hz2]
  simp only [View.readAt_eq_ld, h3.read_unread, h4.read_unread, View.ld_unit_zero (S := S1x1024x3) hz3, View.ld_unit_zero (S := S1x3x1024) hz3]

theorem sD_1 (c : Dev nD) (i : grid0.Coords) (a3 : Memref sig .tc .vmem S1x1024x3 .f32) (h3 : a3.IsWhole) (a4 : Memref sig .tc .vmem S1x3x1024 .f32) (h4 : a4.IsWhole) (a5 : Memref sig .tc .vmem S1x1024x1 .f32) (h5 : a5.IsWhole) (a6 : Memref sig .tc .vmem S1x4096x1 .f32) (h6 : a6.IsWhole) (a7 : Memref sig .tc .vmem S1024x1 .f32) (h7 : a7.IsWhole) (a8 : Memref sig .tc .vmem S1x4096 .f32) (h8 : a8.IsWhole) (hc0 : ¬cond0_0 i) (hc1 : cond0_1 i) (hc2 : ¬cond0_2 i) (hc3 : ¬cond0_3 i)
    (x0 : Vec F S1x1024x3 .f32) (x1 : Vec F S1x3x1024 .f32) (xs1 : Vec F S1x4096 .f32) :
    sout0_D_1 c i a3 h3 a4 h4 a5 h5 a6 h6 a7 h7 a8 h8 hc0 hc1 hc2 hc3 x0 x1 xs1 = rowUpd i x0 x1 xs1 := by
  unfold sout0_D_1 kernelRun0_D
  dsimp only
  sl_unfold_run_names
  simp only [View.readAt_eq_ld, h3.read_unread, h4.read_unread, View.ld_unit_zero (S := S1x1024x3) hz3, View.ld_unit_zero (S := S1x3x1024) hz3, h8.read_unread]
  exact read_slice_store i a8 h8 xs1 _

theorem sA_0 (c : Dev nD) (i : grid0.Coords) (a3 : Memref sig .tc .vmem S1x1024x3 .f32) (h3 : a3.IsWhole) (a4 : Memref sig .tc .vmem S1x3x1024 .f32) (h4 : a4.IsWhole) (a5 : Memref sig .tc .vmem S1x1024x1 .f32) (h5 : a5.IsWhole) (a6 : Memref sig .tc .vmem S1x4096x1 .f32) (h6 : a6.IsWhole) (a7 : Memref sig .tc .vmem S1024x1 .f32) (h7 : a7.IsWhole) (a8 : Memref sig .tc .vmem S1x4096 .f32) (h8 : a8.IsWhole) (hc0 : cond0_0 i) (hc1 : cond0_1 i) (hc2 : ¬cond0_2 i) (hc3 : ¬cond0_3 i)
    (x0 : Vec F S1x1024x3 .f32) (x1 : Vec F S1x3x1024 .f32) :
    sout0_A_0 c i a3 h3 a4 h4 a5 h5 a6 h6 a7 h7 a8 h8 hc0 hc1 hc2 hc3 x0 x1 = newCol x0 x1 k0_pay7 := by
  unfold sout0_A_0
  rw [View.read_writes_eq_canon _ _ _ (scover0_A_0 c i a3 h3 a4 h4 a5 h5 a6 h6 a7 h7 a8 h8 hc0 hc1 hc2 hc3 x0 x1)]
  unfold kernelRun0_A
  dsimp only
  sl_unfold_run_names
  rw [View.canon_cons_unit_zero (S := S1024x1) hz2, View.readCov_unit_zero _ hz2]
  simp only [View.readAt_eq_ld, h3.read_unread, h4.read_unread, View.ld_unit_zero (S := S1x1024x3) hz3, View.ld_unit_zero (S := S1x3x1024) hz3]

/-- A store of 1024 entries after a store of the whole buffer, over anything, leaves the whole store's payload patched. -/
theorem read_slice_after_fill (i : grid0.Coords) (v : View sig .tc .vmem S1x4096 .f32) (s : Vec F S1x4096 .f32) (w : Vec F S1x1024 .f32) :
    v.read (Elt F) (v.writes (Elt F) v.junk
      [(⟨Rect.unit (s := S1x4096) (k0_off1 i) S1x1024.size (k0_off1_inb i), w⟩ : View.Piece (Elt F) S1x4096 .f32),
       ⟨Rect.unit (s := S1x4096) ![0, 0] S1x4096.size inb_S1x4096_S1x4096_0_0, s⟩]) = patch i s w := by
  funext y
  rw [View.read_writes_cons_unit v v.junk (k0_off1_inb i) w _ y (k0_off1_eq i)]
  rw [View.read_writes_junk_eq_canon, View.canon_unit_zero hz2]
  rfl

theorem sA_1 (c : Dev nD) (i : grid0.Coords) (a3 : Memref sig .tc .vmem S1x1024x3 .f32) (h3 : a3.IsWhole) (a4 : Memref sig .tc .vmem S1x3x1024 .f32) (h4 : a4.IsWhole) (a5 : Memref sig .tc .vmem S1x1024x1 .f32) (h5 : a5.IsWhole) (a6 : Memref sig .tc .vmem S1x4096x1 .f32) (h6 : a6.IsWhole) (a7 : Memref sig .tc .vmem S1024x1 .f32) (h7 : a7.IsWhole) (a8 : Memref sig .tc .vmem S1x4096 .f32) (h8 : a8.IsWhole) (hc0 : cond0_0 i) (hc1 : cond0_1 i) (hc2 : ¬cond0_2 i) (hc3 : ¬cond0_3 i)
    (x0 : Vec F S1x1024x3 .f32) (x1 : Vec F S1x3x1024 .f32) :
    sout0_A_1 c i a3 h3 a4 h4 a5 h5 a6 h6 a7 h7 a8 h8 hc0 hc1 hc2 hc3 x0 x1 = rowUpd i x0 x1 k0_pay6 := by
  unfold sout0_A_1 kernelRun0_A
  dsimp only
  sl_unfold_run_names
  simp only [View.readAt_eq_ld, h3.read_unread, h4.read_unread, View.ld_unit_zero (S := S1x1024x3) hz3, View.ld_unit_zero (S := S1x3x1024) hz3]
  rw [View.read_writes_junk_eq_canon a8.view, View.canon_unit_zero hz2]
  exact read_slice_after_fill i VS0_1 k0_pay6 _

end Cert.KernelIdeal.Pieces

end
-- ==== Proof.Steps.lean ====
/-
  The recurrence the two accumulators follow from one grid point to the next, and what the output blocks hold when a
  sweep ends.

  Points are numbered t = 16·b + 4·ni + mi (batch b, tile ni of target points, tile mi of predicted points), mi fastest.
  The column accumulator is reset where mi = 0 (t mod 4 = 0) and otherwise continues from the point before; the row
  accumulator is reset where ni = mi = 0 (t mod 16 = 0) and otherwise continues. Where mi = 3 the first output block is the
  square roots of the column accumulator just updated; where ni = mi = 3 the second is those of the row accumulator.
-/
import proofs.«156787_j1924145348887_2_alg».proof.Proof.Pieces

set_option maxRecDepth 16384

noncomputable section

namespace Cert.KernelIdeal.Steps

open Idealize.ShloMosaic Idealize.ShloMosaic.TcCoe Idealize.SL.Sem
open Cert.KernelIdeal Cert.KernelIdeal.Gen Cert.KernelIdeal.Pieces

variable {F : FTy → Type} [FloatOps F]
variable (m : (ℓ : Loc nD τ sig) → Buf (Elt F) ℓ)

/-- The column accumulator after point `t`. -/
abbrev colAcc (c : Dev nD) (n : ℕ) (h : n < cfg0.N) : Vec F S1024x1 .f32 := (outsAt0 m c n h).2.2.1
/-- The row accumulator after point `t`. -/
abbrev rowAcc (c : Dev nD) (n : ℕ) (h : n < cfg0.N) : Vec F S1x4096 .f32 := (outsAt0 m c n h).2.2.2

theorem col_step (c : Dev nD) (t : Fin cfg0.N) :
    colAcc m c t.val t.isLt = newCol (iblk m c 0 t) (iblk m c 1 t)
      (if t.val % 4 = 0 then k0_pay7 else colAcc m c (t.val - 1) (Nat.lt_of_le_of_lt (Nat.sub_le _ _) t.isLt)) := by
  have hN : t.val < 128 := lt_of_lt_of_eq t.isLt (show cfg0.N = 128 from N_0)
  unfold colAcc
  by_cases h1 : t.val % 4 = 0
  · rw [if_pos h1]
    have h2 : ¬t.val % 4 = 3 := by omega
    have h3 : ¬t.val % 16 = 15 := by omega
    by_cases h0 : t.val % 16 = 0
    · rw [outsAt0_A m c t h0 h1 h2 h3]; dsimp only
      exact sA_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t)
    · rw [outsAt0_D m c t h0 h1 h2 h3]; dsimp only
      exact sD_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.2
  · rw [if_neg h1]
    have h0 : ¬t.val % 16 = 0 := by omega
    by_cases h2 : t.val % 4 = 3
    · by_cases h3 : t.val % 16 = 15
      · rw [outsAt0_E m c t h0 h1 h2 h3]; dsimp only
        exact sE_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
      · rw [outsAt0_C m c t h0 h1 h2 h3]; dsimp only
        exact sC_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
    · have h3 : ¬t.val % 16 = 15 := by omega
      rw [outsAt0_B m c t h0 h1 h2 h3]; dsimp only
      exact sB_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

theorem row_step (c : Dev nD) (t : Fin cfg0.N) :
    rowAcc m c t.val t.isLt = rowUpd (grid0.coords t) (iblk m c 0 t) (iblk m c 1 t)
      (if t.val % 16 = 0 then k0_pay6 else rowAcc m c (t.val - 1) (Nat.lt_of_le_of_lt (Nat.sub_le _ _) t.isLt)) := by
  have hN : t.val < 128 := lt_of_lt_of_eq t.isLt (show cfg0.N = 128 from N_0)
  unfold rowAcc
  by_cases h0 : t.val % 16 = 0
  · rw [if_pos h0]
    have h1 : t.val % 4 = 0 := by omega
    have h2 : ¬t.val % 4 = 3 := by omega
    have h3 : ¬t.val % 16 = 15 := by omega
    rw [outsAt0_A m c t h0 h1 h2 h3]; dsimp only
    exact sA_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t)
  · rw [if_neg h0]
    by_cases h1 : t.val % 4 = 0
    · have h2 : ¬t.val % 4 = 3 := by omega
      have h3 : ¬t.val % 16 = 15 := by omega
      rw [outsAt0_D m c t h0 h1 h2 h3]; dsimp only
      exact sD_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.2
    · by_cases h2 : t.val % 4 = 3
      · by_cases h3 : t.val % 16 = 15
        · rw [outsAt0_E m c t h0 h1 h2 h3]; dsimp only
          exact sE_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
        · rw [outsAt0_C m c t h0 h1 h2 h3]; dsimp only
          exact sC_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
      · have h3 : ¬t.val % 16 = 15 := by omega
        rw [outsAt0_B m c t h0 h1 h2 h3]; dsimp only
        exact sB_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

/-- Where a sweep over the predicted points ends, the first output block holds the square roots of the column accumulator. -/
theorem out2_eq (c : Dev nD) (t : Fin cfg0.N) (h2 : t.val % 4 = 3) :
    (outsAt0 m c t.val t.isLt).1 = k0_pay4 (colAcc m c t.val t.isLt) := by
  have hN : t.val < 128 := lt_of_lt_of_eq t.isLt (show cfg0.N = 128 from N_0)
  have h0 : ¬t.val % 16 = 0 := by omega
  have h1 : ¬t.val % 4 = 0 := by omega
  unfold colAcc
  by_cases h3 : t.val % 16 = 15
  · rw [outsAt0_E m c t h0 h1 h2 h3]; dsimp only
    rw [sE_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2]
    exact oE_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_C m c t h0 h1 h2 h3]; dsimp only
    rw [sC_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2]
    exact oC_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

/-- Where a batch ends, the second output block holds the square roots of the row accumulator. -/
theorem out3_eq (c : Dev nD) (t : Fin cfg0.N) (h3 : t.val % 16 = 15) :
    (outsAt0 m c t.val t.isLt).2.1 = k0_pay5 (rowAcc m c t.val t.isLt) := by
  have hN : t.val < 128 := lt_of_lt_of_eq t.isLt (show cfg0.N = 128 from N_0)
  have h0 : ¬t.val % 16 = 0 := by omega
  have h1 : ¬t.val % 4 = 0 := by omega
  have h2 : t.val % 4 = 3 := by omega
  unfold rowAcc
  rw [outsAt0_E m c t h0 h1 h2 h3]; dsimp only
  rw [sE_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2]
  exact oE_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

end Cert.KernelIdeal.Steps

end
-- ==== Proof.ChamferSpec.lean ====
/-
  The Chamfer distance between two clouds of 4096 points of ℝ³, for 8 batches, over the extended reals.

  For a batch `b`, a target point `n` and a predicted point `m`, the clamped squared distance is
      D b n m = max ((‖a‖² + ‖p‖²) − 2·⟨a, p⟩) 0,      a = trgt[b, n, ·],  p = pred[b, m, ·],
  with ‖a‖² = (a₀² + a₁²) + a₂² and ⟨a, p⟩ = (a₀p₀ + a₁p₁) + a₂p₂.
  The "complete" row of a batch is  n ↦ √(min over m of D b n m),  its "accuracy" row is  m ↦ √(min over n of D b n m);
  the three results are the mean of all complete entries, the mean of all accuracy entries, and half their sum.
  A minimum over a set of indices is `Finset.inf` on the extended reals (its value over the empty set is +∞, which is what an
  accumulator reset to +∞ holds); the running minima over the indices below a bound are `rowPart` and `colPart`.
-/
import Mathlib.Data.EReal.Basic
import Idealize.ShloMosaic.PureOps.Ideal
import Idealize.ShloMosaic.Lib.ValueIdx

noncomputable section

namespace Cert.Chamfer

open Idealize.ShloMosaic Idealize.ShloMosaic.ValueIdx

/-- The point arrays: 8 batches of 4096 points of 3 coordinates. -/
abbrev Pts : Shape := ⟨3, ![8, 4096, 3]⟩
/-- A row array with a trailing unit axis: 8 batches of 4096 entries. -/
abbrev Rows : Shape := ⟨3, ![8, 4096, 1]⟩

/-- The f32 literals of both programs, at their exact values. -/
abbrev zero : EReal := Ideal.ofBits .f32 0x00000000#32
abbrev two : EReal := Ideal.ofBits .f32 0x40000000#32
abbrev half : EReal := Ideal.ofBits .f32 0x3F000000#32
abbrev pinf : EReal := Ideal.ofBits .f32 0x7F800000#32
abbrev c32768 : EReal := Ideal.ofBits .f32 0x47000000#32
abbrev c4096 : EReal := Ideal.ofBits .f32 0x45800000#32
abbrev c8 : EReal := Ideal.ofBits .f32 0x41000000#32

/-- ‖x‖² of a point, the squares added first to last. -/
def sq3 (x : Fin 3 → EReal) : EReal := x 0 * x 0 + x 1 * x 1 + x 2 * x 2
/-- ⟨x, y⟩ of two points, the products added first to last. -/
def dot3 (x y : Fin 3 → EReal) : EReal := x 0 * y 0 + x 1 * y 1 + x 2 * y 2
/-- The squared distance by the expansion ‖a‖² + ‖p‖² − 2⟨a, p⟩, clamped at zero. -/
def dist2 (a p : Fin 3 → EReal) : EReal := max ((sq3 a + sq3 p) - two * dot3 a p) zero

/-- Point `n` of batch `b`. -/
def pt (A : Pts.Idx → EReal) (b : Fin 8) (n : Fin 4096) : Fin 3 → EReal := fun d => A (ix3 b n d)

/-- The clamped squared distance between target point `n` and predicted point `m` of batch `b`. -/
def D (A P : Pts.Idx → EReal) (b : Fin 8) (n m : Fin 4096) : EReal := dist2 (pt A b n) (pt P b m)

/-- The minimum of `f` over the indices below `M` (+∞ when there is none). -/
def below (f : Fin 4096 → EReal) (M : Nat) : EReal := (Finset.univ.filter fun k : Fin 4096 => k.val < M).inf f

/-- Row `n`'s running minimum over the predicted points below `M`. -/
def rowPart (A P : Pts.Idx → EReal) (b : Fin 8) (n : Fin 4096) (M : Nat) : EReal := below (fun m => D A P b n m) M
/-- Column `m`'s running minimum over the target points below `N`. -/
def colPart (A P : Pts.Idx → EReal) (b : Fin 8) (m : Fin 4096) (N : Nat) : EReal := below (fun n => D A P b n m) N

/-- min over all predicted points. -/
def rowMin (A P : Pts.Idx → EReal) (b : Fin 8) (n : Fin 4096) : EReal := Finset.univ.inf fun m => D A P b n m
/-- min over all target points. -/
def colMin (A P : Pts.Idx → EReal) (b : Fin 8) (m : Fin 4096) : EReal := Finset.univ.inf fun n => D A P b n m

/-- The "complete" rows: the distance from each target point to the nearest predicted point. -/
def completeRows (A P : Pts.Idx → EReal) : Rows.Idx → EReal := fun i => Ideal.sqrt (rowMin A P (i 0) (i 1))
/-- The "accuracy" rows: the distance from each predicted point to the nearest target point. -/
def accuracyRows (A P : Pts.Idx → EReal) : Rows.Idx → EReal := fun i => Ideal.sqrt (colMin A P (i 0) (i 1))

/-- The mean of a row array: the sum of all 32768 entries, from zero, divided by 32768. -/
def mean (x : Rows.Idx → EReal) : EReal := Ideal.div (zero + ∑ i : Rows.Idx, x i) c32768

def complete (A P : Pts.Idx → EReal) : EReal := mean (completeRows A P)
def accuracy (A P : Pts.Idx → EReal) : EReal := mean (accuracyRows A P)
def chamfer (A P : Pts.Idx → EReal) : EReal := half * (complete A P + accuracy A P)

/-! ## The same quantities as a plain array program spells them

Each norm is a sum over the three coordinates from zero, each inner product a sum over them, the square root is taken of
every distance before the minimum, and a mean over all entries is a mean over the batches of the means of the rows. -/

def sq3R (x : Fin 3 → EReal) : EReal := zero + ∑ d : Fin 3, x d * x d
def dot3R (x y : Fin 3 → EReal) : EReal := ∑ d : Fin 3, x d * y d
/-- The distance itself: the square root of the clamped squared distance. -/
def distR (a p : Fin 3 → EReal) : EReal := Ideal.sqrt (max ((sq3R a + sq3R p) - two * dot3R a p) zero)
def DR (A P : Pts.Idx → EReal) (b : Fin 8) (n m : Fin 4096) : EReal := distR (pt A b n) (pt P b m)
/-- The mean over the batches of the means of the rows. -/
def meanR (x : Fin 8 → Fin 4096 → EReal) : EReal :=
  Ideal.div (zero + ∑ b : Fin 8, Ideal.div (zero + ∑ n : Fin 4096, x b n) c4096) c8
def completeR (A P : Pts.Idx → EReal) : EReal := meanR fun b n => Finset.univ.inf fun m => DR A P b n m
def accuracyR (A P : Pts.Idx → EReal) : EReal := meanR fun b m => Finset.univ.inf fun n => DR A P b n m
def chamferR (A P : Pts.Idx → EReal) : EReal := half * (completeR A P + accuracyR A P)

end Cert.Chamfer

end
-- ==== Proof.LibColumnLayout.lean ====
/-
  Column forms of three layout operations, read at an index: a vector of `a` entries stood up as an `[a, 1]` column, an
  `[a, 1]` column laid down as a `[1, a]` row (both keep the row-major order, so entry `i` stays entry `i`), and an
  `[a, 1]` column broadcast along its unit axis to `[a, b]` (row `p` is `b` copies of the column's entry `p`).
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the column's entry `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.LibMinReduce.lean ====
/-
  A minimum reduction read at an index, over the extended reals.

  A `vector.multi_reduction <minimumf>` over ONE axis is, at each reduced index, the fold of `min` from the accumulator's
  value over that axis's coordinates — the reduced index with the coordinate put back on the reduced axis
  (`Shape.Reduces.lift`, which computes by `rfl` at literal axes). It is the companion, for a minimum, of the library's
  reading of a maximum reduction; generic in the rank, the axis, the extents and the float format.
-/
import Idealize.ShloMosaic.PureOps.Ideal.Laws
import Idealize.ShloMosaic.PureOps.Reduce

namespace Cert.MinReduce

open Idealize.ShloMosaic

/-- A minimum reduction over one axis is, at each reduced index, the fold of `min` from the accumulator's value over that
    axis's coordinates. To use it on a printed reduction pass the printed proofs as they are (`(.inl rfl) rfl`) in term
    mode, `refine (multiReduction_minimumf_single src acc h (.inl rfl) rfl j).trans ?_`: a rewrite does not see through the
    accumulator hypothesis's spelling. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Cert.MinReduce
-- ==== Proof.TileValue.lean ====
/-
  One grid point's arithmetic, read entry by entry over the extended reals.

  A point holds a block `x0` of 1024 target points ([1, 1024, 3]: row r is point r) and a block `x1` of 1024 predicted
  points, transposed ([1, 3, 1024]: column c is point c). The body forms the 1024 × 1024 tile of clamped squared distances
  (entry (r, c) is `dist2` of target point r and predicted point c), folds each row's minimum into a column accumulator
  `s` of shape [1024, 1] and each column's minimum into a row accumulator of shape [1, 1024], and, when a sweep ends,
  stores the square roots of an accumulator as a [1, n, 1] block.
-/
import proofs.«156787_j1924145348887_2_alg».proof.Proof.Gen.KernelIdeal.Skeleton
import proofs.«156787_j1924145348887_2_alg».proof.Proof.ChamferSpec
import proofs.«156787_j1924145348887_2_alg».proof.Proof.LibColumnLayout
import proofs.«156787_j1924145348887_2_alg».proof.Proof.LibMinReduce
import Idealize.ShloMosaic.Lib.ValueLayout
import Idealize.ShloMosaic.Lib.Pipeline.Value
import Idealize.ShloMosaic.PureOps.Ideal.Laws
import Idealize.ShloMosaic.PureOps.Reduce

noncomputable section

namespace Cert.KernelIdeal.Tile

open Cert.KernelIdeal Cert.KernelIdeal.Gen Idealize.ShloMosaic Idealize.ShloMosaic.ValueIdx Cert.Chamfer Cert.ColumnLayout Cert.MinReduce

variable (x0 : Vec Ideal S1x1024x3 .f32) (x1 : Vec Ideal S1x3x1024 .f32)

/-- Coordinate `d` of target point `r` of the block. -/
abbrev tgt (r : Fin 1024) : Fin 3 → EReal := fun d => x0 (ix3 (0 : Fin 1) r d)
/-- Coordinate `d` of predicted point `c` of the (transposed) block. -/
abbrev prd (c : Fin 1024) : Fin 3 → EReal := fun d => x1 (ix3 (0 : Fin 1) d c)

theorem pay10_apply (r : Fin 1024) (u : Fin 1) : k0_pay10 (F := Ideal) x0 (ix2 r u) = tgt x0 r 0 := by
  unfold k0_pay10 k0_pay8
  exact (slice2_axis1_apply 0 _ slices_S1024x3_o0_0_S1024x1 r u (0 : Fin 3) (by have := u.isLt; show 0 = 0 + u.val; omega)).trans
    (shapeCast_1ab_ab_apply x0 shapeCasts_S1x1024x3_S1024x3 r 0)

theorem pay11_apply (r : Fin 1024) (u : Fin 1) : k0_pay11 (F := Ideal) x0 (ix2 r u) = tgt x0 r 1 := by
  unfold k0_pay11 k0_pay8
  exact (slice2_axis1_apply 1 _ slices_S1024x3_o0_1_S1024x1 r u (1 : Fin 3) (by have := u.isLt; show 1 = 1 + u.val; omega)).trans
    (shapeCast_1ab_ab_apply x0 shapeCasts_S1x1024x3_S1024x3 r 1)

theorem pay12_apply (r : Fin 1024) (u : Fin 1) : k0_pay12 (F := Ideal) x0 (ix2 r u) = tgt x0 r 2 := by
  unfold k0_pay12 k0_pay8
  exact (slice2_axis1_apply 2 _ slices_S1024x3_o0_2_S1024x1 r u (2 : Fin 3) (by have := u.isLt; show 2 = 2 + u.val; omega)).trans
    (shapeCast_1ab_ab_apply x0 shapeCasts_S1x1024x3_S1024x3 r 2)

theorem pay13_apply (u : Fin 1) (c : Fin 1024) : k0_pay13 (F := Ideal) x1 (ix2 u c) = prd x1 c 0 := by
  unfold k0_pay13 k0_pay9
  exact (slice2_axis0_apply 0 _ slices_S3x1024_o0_0_S1x1024 u c (0 : Fin 3) (by have := u.isLt; show 0 = 0 + u.val; omega)).trans
    (shapeCast_1ab_ab_apply x1 shapeCasts_S1x3x1024_S3x1024 0 c)

theorem pay14_apply (u : Fin 1) (c : Fin 1024) : k0_pay14 (F := Ideal) x1 (ix2 u c) = prd x1 c 1 := by
  unfold k0_pay14 k0_pay9
  exact (slice2_axis0_apply 1 _ slices_S3x1024_o1_0_S1x1024 u c (1 : Fin 3) (by have := u.isLt; show 1 = 1 + u.val; omega)).trans
    (shapeCast_1ab_ab_apply x1 shapeCasts_S1x3x1024_S3x1024 1 c)

theorem pay15_apply (u : Fin 1) (c : Fin 1024) : k0_pay15 (F := Ideal) x1 (ix2 u c) = prd x1 c 2 := by
  unfold k0_pay15 k0_pay9
  exact (slice2_axis0_apply 2 _ slices_S3x1024_o2_0_S1x1024 u c (2 : Fin 3) (by have := u.isLt; show 2 = 2 + u.val; omega)).trans
    (shapeCast_1ab_ab_apply x1 shapeCasts_S1x3x1024_S3x1024 2 c)

/-- The inner products of the tile: entry (r, c) is ⟨target r, predicted c⟩. -/
theorem pay16_apply (r c : Fin 1024) : k0_pay16 (F := Ideal) x0 x1 (ix2 r c) = dot3 (tgt x0 r) (prd x1 c) := by
  unfold k0_pay16 dot3
  simp only [addf_apply, mulf_apply, broadcastTo_a1_ab_apply, broadcastTo_1b_ab_apply, pay10_apply, pay11_apply, pay12_apply,
    pay13_apply, pay14_apply, pay15_apply]

/-- The sums of the squared norms: entry (r, c) is ‖target r‖² + ‖predicted c‖². -/
theorem pay17_apply (r c : Fin 1024) : k0_pay17 (F := Ideal) x0 x1 (ix2 r c) = sq3 (tgt x0 r) + sq3 (prd x1 c) := by
  unfold k0_pay17 sq3
  simp only [addf_apply, mulf_apply, broadcastTo_a1_ab_apply, broadcastTo_1b_ab_apply, pay10_apply, pay11_apply, pay12_apply,
    pay13_apply, pay14_apply, pay15_apply]

/-- The tile of clamped squared distances. -/
abbrev tile : FVec Ideal S1024x1024 .f32 := k0_pay1 (k0_pay16 x0 x1) (k0_pay17 x0 x1) k0_pay18

theorem tile_apply (r c : Fin 1024) : tile x0 x1 (ix2 r c) = dist2 (tgt x0 r) (prd x1 c) := by
  unfold tile k0_pay1 k0_pay18 dist2
  simp only [maximumf_apply, subf_apply, mulf_apply, broadcast_apply, pay16_apply, pay17_apply]
  rfl

variable (T : FVec Ideal S1024x1024 .f32)

/-- Row `r`'s minimum over the tile's columns, from +∞. -/
theorem rowmin_apply (r : Fin 1024) :
    multiReduction .minimumf [1] S1024 T 0x7F800000#32 reduces_S1024x1024_S1024 (.inl rfl) rfl (ix1 r)
      = (Finset.univ : Finset (Fin 1024)).fold min pinf fun c => T (ix2 r c) := by
  refine (multiReduction_minimumf_single T 0x7F800000#32 reduces_S1024x1024_S1024 (.inl rfl) rfl (ix1 r)).trans ?_
  refine congrArg (fun f => Finset.fold min _ f Finset.univ) (funext fun c => congrArg T (funext fun a => Fin.ext ?_))
  match a with
  | ⟨0, _⟩ => rfl
  | ⟨1, _⟩ => rfl

/-- Column `c`'s minimum over the tile's rows, from +∞. -/
theorem colmin_apply (c : Fin 1024) :
    multiReduction .minimumf [0] S1024 T 0x7F800000#32 reduces_S1024x1024_S1024_2 (.inl rfl) rfl (ix1 c)
      = (Finset.univ : Finset (Fin 1024)).fold min pinf fun r => T (ix2 r c) := by
  refine (multiReduction_minimumf_single T 0x7F800000#32 reduces_S1024x1024_S1024_2 (.inl rfl) rfl (ix1 c)).trans ?_
  refine congrArg (fun f => Finset.fold min _ f Finset.univ) (funext fun r => congrArg T (funext fun a => Fin.ext ?_))
  match a with
  | ⟨0, _⟩ => rfl
  | ⟨1, _⟩ => rfl

variable (v38 v41 v42 : FVec Ideal S1024x1024 .f32)

/-- The column accumulator after the point: each entry is the smaller of its old value and its row's minimum over the tile. -/
theorem pay2_apply (s : Vec Ideal S1024x1 .f32) (r : Fin 1024) (u : Fin 1) :
    k0_pay2 (F := Ideal) v38 v41 v42 s (ix2 r u)
      = min (s (ix2 r u)) ((Finset.univ : Finset (Fin 1024)).fold min pinf fun c => k0_pay1 v38 v41 v42 (ix2 r c)) := by
  unfold k0_pay2
  simp only [shapeCast_self, minimumf_apply]
  refine congrArg (min _) ?_
  exact (shapeCast_a_a1_apply _ shapeCasts_S1024_S1024x1 r u).trans (rowmin_apply _ r)

/-- The row accumulator's slice after the point: each entry is the smaller of its old value and its column's minimum over the tile. -/
theorem pay3_apply (s : Vec Ideal S1x1024 .f32) (u : Fin 1) (c : Fin 1024) :
    k0_pay3 (F := Ideal) v38 v41 v42 s (ix2 u c)
      = min (s (ix2 u c)) ((Finset.univ : Finset (Fin 1024)).fold min pinf fun r => k0_pay1 v38 v41 v42 (ix2 r c)) := by
  unfold k0_pay3
  simp only [shapeCast_self, minimumf_apply]
  refine congrArg (min _) ?_
  exact (shapeCast_a_1a_apply _ shapeCasts_S1024_S1x1024 u c).trans (colmin_apply _ c)

/-- The stored block of square roots of a column accumulator. -/
theorem pay4_apply (s : Vec Ideal S1024x1 .f32) (u : Fin 1) (r : Fin 1024) (w : Fin 1) :
    k0_pay4 (F := Ideal) s (ix3 u r w) = Ideal.sqrt (s (ix2 r (0 : Fin 1))) := by
  unfold k0_pay4
  refine (shapeCast_apply _ shapeCasts_S1024_S1x1024x1 (ix3 u r w) (ix1 r) ?_).trans
    (congrArg Ideal.sqrt (shapeCast_apply s shapeCasts_S1024x1_S1024 (ix1 r) (ix2 r (0 : Fin 1)) ?_))
  · have := u.isLt; have := w.isLt
    rw [Shape.rowMajor_val_one, Shape.rowMajor_val_three]
    show r.val = (u.val * 1024 + r.val) * 1 + w.val
    omega
  · rw [Shape.rowMajor_val_one, Shape.rowMajor_val_two]
    show r.val * 1 + 0 = r.val
    omega

/-- The stored block of square roots of a row accumulator. -/
theorem pay5_apply (s : Vec Ideal S1x4096 .f32) (u : Fin 1) (c : Fin 4096) (w : Fin 1) :
    k0_pay5 (F := Ideal) s (ix3 u c w) = Ideal.sqrt (s (ix2 (0 : Fin 1) c)) := by
  unfold k0_pay5
  refine (shapeCast_apply _ shapeCasts_S4096_S1x4096x1 (ix3 u c w) (ix1 c) ?_).trans
    (congrArg Ideal.sqrt (shapeCast_apply s shapeCasts_S1x4096_S4096 (ix1 c) (ix2 (0 : Fin 1) c) ?_))
  · have := u.isLt; have := w.isLt
    rw [Shape.rowMajor_val_one, Shape.rowMajor_val_three]
    show c.val = (u.val * 4096 + c.val) * 1 + w.val
    omega
  · rw [Shape.rowMajor_val_one, Shape.rowMajor_val_two]
    show 0 * 4096 + c.val = c.val
    omega

/-- A reset accumulator holds +∞ everywhere. -/
theorem pay6_apply (i : S1x4096.Idx) : k0_pay6 (F := Ideal) i = pinf := by
  unfold k0_pay6; simp only [shapeCast_self]; rfl
theorem pay7_apply (i : S1024x1.Idx) : k0_pay7 (F := Ideal) i = pinf := by
  unfold k0_pay7; simp only [shapeCast_self]; rfl

end Cert.KernelIdeal.Tile

end
-- ==== Proof.Blocks.lean ====
import proofs.«156787_j1924145348887_2_alg».proof.Proof.Gen.KernelIdeal.Frame
import Idealize.ShloMosaic.Lib.ValueLayout
import Idealize.ShloMosaic.Lib.ValueIdx
import Idealize.ShloMosaic.Lib.StableHlo.Run
import Idealize.ShloMosaic.Lib.Tactic

/-
  What the two input blocks of a grid point hold, in terms of the two argument arrays.

  The grid is 8 × 4 × 4: point t has batch b = t / 16, target-block index ni = t / 4 mod 4 and predicted-block index
  mi = t mod 4. The first window moves over the target array in blocks of 1024 points: at point t its block is the points
  1024·ni … 1024·ni + 1023 of batch b, all three coordinates. The second window moves over the transposed predicted array
  (coordinates before points) in blocks of 1024 points: at point t its block holds, at (d, c), coordinate d of point
  1024·mi + c of batch b. A block's coordinate on an axis is the block index times the block's extent plus the coordinate
  inside the block.
-/

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-! ## The coordinates of a grid point -/

/-- The grid has 128 points. -/
theorem t_lt (t : Fin cfg0.N) : t.val < 128 := lt_of_lt_of_eq t.isLt N_0

/-- The batch of point `t`. -/
def bOf (t : Fin cfg0.N) : Fin 8 := ⟨t.val / 16, by have := t_lt t; omega⟩
/-- The index of point `t`'s block of target points. -/
def niOf (t : Fin cfg0.N) : Fin 4 := ⟨t.val / 4 % 4, Nat.mod_lt _ (by decide)⟩
/-- The index of point `t`'s block of predicted points. -/
def miOf (t : Fin cfg0.N) : Fin 4 := ⟨t.val % 4, Nat.mod_lt _ (by decide)⟩
/-- Point `r` of block `k` of 1024 points. -/
def row (k : Fin 4) (r : Fin 1024) : Fin 4096 := ⟨1024 * k.val + r.val, by have := k.isLt; have := r.isLt; omega⟩

theorem bOf_val (t : Fin cfg0.N) : (bOf t).val = t.val / 16 := rfl
theorem niOf_val (t : Fin cfg0.N) : (niOf t).val = t.val / 4 % 4 := rfl
theorem miOf_val (t : Fin cfg0.N) : (miOf t).val = t.val % 4 := rfl
theorem row_val (k : Fin 4) (r : Fin 1024) : (row k r).val = 1024 * k.val + r.val := rfl

/-- The point is its three coordinates, the last moving fastest. -/
theorem t_eq (t : Fin cfg0.N) : t.val = 16 * (bOf t).val + 4 * (niOf t).val + (miOf t).val := by
  rw [bOf_val, niOf_val, miOf_val]; omega

/-! ## The block indices, decided over the grid -/

/-- The first window's block index at point `t` is (b, ni, 0). -/
theorem index0 : ∀ t : Fin cfg0.N, win0_0.index t (0 : Fin 3) = t.val / 16
    ∧ win0_0.index t (1 : Fin 3) = t.val / 4 % 4 ∧ win0_0.index t (2 : Fin 3) = 0 :=
  (by decide +kernel : ∀ t : Fin grid0.N, _)

/-- The second window's block index at point `t` is (b, 0, mi). -/
theorem index1 : ∀ t : Fin cfg0.N, win0_1.index t (0 : Fin 3) = t.val / 16
    ∧ win0_1.index t (1 : Fin 3) = 0 ∧ win0_1.index t (2 : Fin 3) = t.val % 4 :=
  (by decide +kernel : ∀ t : Fin grid0.N, _)

/-! ## The array the second window stages -/

/-- When the region is entered the second window's array is the predicted array with its last two axes swapped. -/
theorem V_main_v0 (c : Dev nD) :
    (V m c main_v0 : S8x3x4096.Idx → Elt F .f32)
      = transpose S8x3x4096 [0, 2, 1] (m ((c : Thread nD τ).loc main_arg1)) transposes_S8x4096x3_S8x3x4096_0_2_1 := by
  show StableHlo.after hostOps0 (fun b => m (c, b)) (Proc.devRef .tc main_v0) = _
  after_results

/-! ## The blocks -/

/-- The first window's block at point `t`: entry (0, r, d) is coordinate `d` of target point `1024·ni + r` of batch `b`. -/
theorem iblk0_apply (c : Dev nD) (t : Fin cfg0.N) (u : Fin 1) (r : Fin 1024) (d : Fin 3) :
    (iblk m c 0 t : Vec F S1x1024x3 .f32) (ix3 u r d)
      = m ((c : Thread nD τ).loc main_arg0) (ix3 (bOf t) (row (niOf t) r) d) := by
  obtain ⟨e0, e1, e2⟩ := index0 t
  unfold iblk
  rw [View.read_apply]
  show V m c main_arg0 _ = _
  rw [V_main_arg0]
  congr 1
  funext a
  apply Fin.ext
  have hu := u.isLt
  match a with
  | ⟨0, _⟩ => show win0_0.index t (0 : Fin 3) * 1 + 1 * u.val = t.val / 16; rw [e0]; omega
  | ⟨1, _⟩ => show win0_0.index t (1 : Fin 3) * 1024 + 1 * r.val = 1024 * (t.val / 4 % 4) + r.val; rw [e1]; omega
  | ⟨2, _⟩ => show win0_0.index t (2 : Fin 3) * 3 + 1 * d.val = d.val; rw [e2]; omega

/-- The second window's block at point `t`: entry (0, d, cc) is coordinate `d` of predicted point `1024·mi + cc` of batch `b`. -/
theorem iblk1_apply (c : Dev nD) (t : Fin cfg0.N) (u : Fin 1) (d : Fin 3) (cc : Fin 1024) :
    (iblk m c 1 t : Vec F S1x3x1024 .f32) (ix3 u d cc)
      = m ((c : Thread nD τ).loc main_arg1) (ix3 (bOf t) (row (miOf t) cc) d) := by
  obtain ⟨e0, e1, e2⟩ := index1 t
  unfold iblk
  rw [View.read_apply]
  show V m c main_v0 _ = _
  rw [V_main_v0]
  refine Eq.trans (congrArg _ ?_) (transpose_ix3_021_apply _ _ (bOf t) d (row (miOf t) cc))
  funext a
  apply Fin.ext
  have hu := u.isLt
  match a with
  | ⟨0, _⟩ => show win0_1.index t (0 : Fin 3) * 1 + 1 * u.val = t.val / 16; rw [e0]; omega
  | ⟨1, _⟩ => show win0_1.index t (1 : Fin 3) * 3 + 1 * d.val = d.val; rw [e1]; omega
  | ⟨2, _⟩ => show win0_1.index t (2 : Fin 3) * 1024 + 1 * cc.val = 1024 * (t.val % 4) + cc.val; rw [e2]; omega

end Cert.KernelIdeal.Blocks

end
-- ==== Proof.ChamferAlgebra.lean ====
/-
  Algebra of the Chamfer specification over the extended reals: the literals at their values, the running minima
  below a bound, the square root commuting with minima, and the array program's spelling of the same quantities.
-/
import proofs.«156787_j1924145348887_2_alg».proof.Proof.ChamferSpec

noncomputable section

namespace Cert.Chamfer

open Idealize.ShloMosaic Idealize.ShloMosaic.ValueIdx

/-! ## The literals -/

/-- The pattern of +∞ denotes the top element. -/
theorem pinf_eq_top : pinf = (⊤ : EReal) := by
  simp [pinf, Ideal.ofBits, Ideal.ieee]

/-- The pattern of +0.0 denotes zero. -/
theorem zero_eq : zero = (0 : EReal) := by
  simp [zero, Ideal.ofBits, Ideal.ieee]

/-- A fold of `min` from +∞ is the infimum. -/
theorem fold_min_pinf {ι : Type*} (s : Finset ι) (g : ι → EReal) : s.fold min pinf g = s.inf g := by
  rw [pinf_eq_top]; rfl

/-! ## Running minima over the indices below a bound -/

theorem below_zero (f : Fin 4096 → EReal) : below f 0 = ⊤ := by
  simp [below]

theorem below_step (f : Fin 4096 → EReal) (j : Nat) (hj : 1024 * j + 1024 ≤ 4096) :
    min (below f (1024 * j)) (Finset.univ.inf fun k : Fin 1024 => f ⟨1024 * j + k.val, by have := k.isLt; omega⟩)
      = below f (1024 * (j + 1)) := by
  refine eq_of_forall_le_iff fun c => ?_
  simp only [below, le_min_iff, Finset.le_inf_iff, Finset.mem_filter, Finset.mem_univ, true_and, forall_true_left]
  constructor
  · rintro ⟨h1, h2⟩ k hk
    by_cases hk' : k.val < 1024 * j
    · exact h1 k hk'
    · have h := h2 ⟨k.val - 1024 * j, by omega⟩
      have e : (⟨1024 * j + (k.val - 1024 * j), by omega⟩ : Fin 4096) = k := Fin.ext (by simp only []; omega)
      simpa only [e] using h
  · intro h
    exact ⟨fun k hk => h k (by omega), fun k => h _ (by have := k.isLt; simp only []; omega)⟩

theorem below_all (f : Fin 4096 → EReal) : below f 4096 = Finset.univ.inf f := by
  unfold below
  rw [Finset.filter_true_of_mem fun k _ => k.isLt]

/-! ## The square root commutes with minima -/

/-- The square root is monotone on all of the extended reals: ⊥ and the negative reals go to ⊥,
    a real r ≥ 0 to its root, ⊤ to ⊤. -/
theorem sqrt_mono : Monotone Ideal.sqrt := by
  intro x y h
  induction x using EReal.rec with
  | bot => rw [Ideal.sqrt_bot]; exact bot_le
  | top => rw [top_le_iff.mp h]
  | coe r =>
    induction y using EReal.rec with
    | bot => exact absurd h (not_le.mpr (EReal.bot_lt_coe r))
    | top => rw [Ideal.sqrt_top]; exact le_top
    | coe s =>
      have hrs : r ≤ s := EReal.coe_le_coe_iff.mp h
      rw [Ideal.sqrt_coe, Ideal.sqrt_coe]
      split_ifs with h1 h2 h2
      · exact le_rfl
      · exact bot_le
      · exact absurd (lt_of_le_of_lt hrs h2) h1
      · exact EReal.coe_le_coe_iff.mpr (Real.sqrt_le_sqrt hrs)

theorem sqrt_inf {ι : Type*} (s : Finset ι) (f : ι → EReal) :
    Ideal.sqrt (s.inf f) = s.inf fun k => Ideal.sqrt (f k) :=
  Finset.apply_inf_eq_inf_comp_of_linearOrder Ideal.sqrt sqrt_mono Ideal.sqrt_top

/-! ## The array program's spelling of the norms, inner products and distances -/

theorem sq3R_eq (x : Fin 3 → EReal) : sq3R x = sq3 x := by
  rw [sq3R, sq3, Fin.sum_univ_three, zero_eq, zero_add]

theorem dot3R_eq (x y : Fin 3 → EReal) : dot3R x y = dot3 x y := by
  rw [dot3R, dot3, Fin.sum_univ_three]

theorem DR_eq (A P : Pts.Idx → EReal) (b : Fin 8) (n m : Fin 4096) : DR A P b n m = Ideal.sqrt (D A P b n m) := by
  rw [DR, distR, D, dist2, sq3R_eq, sq3R_eq, dot3R_eq]

end Cert.Chamfer

end
-- ==== Proof.Invariant.lean ====
/-
  The accumulators' contents after every grid point, over the extended reals, and the two output arrays' blocks.

  Points are numbered t = 16·b + 4·ni + mi. After point t the column accumulator holds, for each target point of block ni,
  the minimum of its clamped squared distances to the predicted points of blocks 0 … mi (the first 1024·(mi + 1) predicted
  points); the row accumulator holds, for each predicted point, the minimum over the target points of blocks 0 … ni if the
  predicted point's own block is at most mi, and of blocks 0 … ni − 1 otherwise. Both follow by induction on t from the
  recurrence of one point: the minimum over the indices below 1024·j and the minimum over block j together are the minimum
  over the indices below 1024·(j + 1), and a reset accumulator holds +∞, the minimum over no index.
-/
import proofs.«156787_j1924145348887_2_alg».proof.Proof.Steps
import proofs.«156787_j1924145348887_2_alg».proof.Proof.TileValue
import proofs.«156787_j1924145348887_2_alg».proof.Proof.Blocks
import proofs.«156787_j1924145348887_2_alg».proof.Proof.ChamferAlgebra

set_option maxRecDepth 16384

noncomputable section

namespace Cert.KernelIdeal.Inv

open Idealize.ShloMosaic Idealize.ShloMosaic.TcCoe Idealize.SL.Sem Idealize.ShloMosaic.ValueIdx
open Cert.KernelIdeal Cert.KernelIdeal.Gen Cert.KernelIdeal.Pieces Cert.KernelIdeal.Steps Cert.KernelIdeal.Tile
open Cert.KernelIdeal.Blocks Cert.Chamfer

variable (m : (ℓ : Loc nD τ sig) → Buf (Elt Ideal) ℓ) (c : Dev nD)

/-- The target points and the predicted points, as the kernel is launched. -/
abbrev A : Pts.Idx → EReal := m ((c : Thread nD τ).loc main_arg0)
abbrev P : Pts.Idx → EReal := m ((c : Thread nD τ).loc main_arg1)

/-! ## The tile of a point -/

theorem tgt_eq (t : Fin cfg0.N) (r : Fin 1024) : tgt (iblk m c 0 t) r = pt (A m c) (bOf t) (row (niOf t) r) :=
  funext fun d => iblk0_apply m c t 0 r d

theorem prd_eq (t : Fin cfg0.N) (k : Fin 1024) : prd (iblk m c 1 t) k = pt (P m c) (bOf t) (row (miOf t) k) :=
  funext fun d => iblk1_apply m c t 0 d k

/-- Entry (r, k) of point t's tile is the clamped squared distance between target point 1024·ni + r and predicted point
    1024·mi + k of batch b. -/
theorem tile_point (t : Fin cfg0.N) (r k : Fin 1024) :
    tile (iblk m c 0 t) (iblk m c 1 t) (ix2 r k) = D (A m c) (P m c) (bOf t) (row (niOf t) r) (row (miOf t) k) := by
  refine (tile_apply (iblk m c 0 t) (iblk m c 1 t) r k).trans ?_
  rw [tgt_eq, prd_eq]
  rfl

theorem newCol_apply (t : Fin cfg0.N) (s : Vec Ideal S1024x1 .f32) (r : Fin 1024) (u : Fin 1) :
    newCol (iblk m c 0 t) (iblk m c 1 t) s (ix2 r u)
      = min (s (ix2 r u)) (Finset.univ.inf fun k : Fin 1024 => D (A m c) (P m c) (bOf t) (row (niOf t) r) (row (miOf t) k)) := by
  refine (pay2_apply (k0_pay16 (iblk m c 0 t) (iblk m c 1 t)) (k0_pay17 (iblk m c 0 t) (iblk m c 1 t)) k0_pay18 s r u).trans ?_
  rw [fold_min_pinf]
  exact congrArg (min _) (Finset.inf_congr rfl fun k _ => tile_point m c t r k)

theorem newRow_apply (t : Fin cfg0.N) (sl : Vec Ideal S1x1024 .f32) (u : Fin 1) (k : Fin 1024) :
    newRow (iblk m c 0 t) (iblk m c 1 t) sl (ix2 u k)
      = min (sl (ix2 u k)) (Finset.univ.inf fun r : Fin 1024 => D (A m c) (P m c) (bOf t) (row (niOf t) r) (row (miOf t) k)) := by
  refine (pay3_apply (k0_pay16 (iblk m c 0 t) (iblk m c 1 t)) (k0_pay17 (iblk m c 0 t) (iblk m c 1 t)) k0_pay18 sl u k).trans ?_
  rw [fold_min_pinf]
  exact congrArg (min _) (Finset.inf_congr rfl fun r _ => tile_point m c t r k)

/-! ## One step of a running minimum -/

/-- A running minimum over the indices below 1024·j, joined with the minimum over block j, is the running minimum over the
    indices below 1024·(j + 1). -/
theorem min_block (f : Fin 4096 → EReal) (j : Fin 4) (s : EReal) (hs : s = below f (1024 * j.val)) :
    min s (Finset.univ.inf fun k : Fin 1024 => f (row j k)) = below f (1024 * (j.val + 1)) := by
  rw [hs]
  exact below_step f j.val (by have := j.isLt; omega)

/-! ## Reading the patched row accumulator -/

/-- The last grid coordinate of point t is mi = t mod 4. -/
theorem coords2 : ∀ t : Fin cfg0.N, ((grid0.coords t) 2).val = t.val % 4 :=
  (by decide +kernel : ∀ t : Fin grid0.N, _)

theorem patch_hit (i : grid0.Coords) (s : Vec Ideal S1x4096 .f32) (w : Vec Ideal S1x1024 .f32) (j : Fin 4) (hj : (i 2).val = j.val)
    (u : Fin 1) (k : Fin 1024) : patch i s w (ix2 u (row j k)) = w (ix2 (0 : Fin 1) k) := by
  unfold patch
  have hu : u.val = 0 := by have := u.isLt; omega
  have h : ∀ a, (![0, 1024 * (i 2).val] : Fin 2 → ℕ) a ≤ ((ix2 u (row j k)) a).val
      ∧ ((ix2 u (row j k)) a).val < (![0, 1024 * (i 2).val] : Fin 2 → ℕ) a + S1x1024.size a := fun a => by
    match a with
    | ⟨0, _⟩ => show 0 ≤ u.val ∧ u.val < 0 + 1; omega
    | ⟨1, _⟩ => show 1024 * (i 2).val ≤ (row j k).val ∧ (row j k).val < 1024 * (i 2).val + 1024
                rw [row_val, hj]; have := k.isLt; omega
  rw [dif_pos h]
  refine congrArg w (funext fun a => Fin.ext ?_)
  match a with
  | ⟨0, _⟩ => show u.val - 0 = 0; omega
  | ⟨1, _⟩ => show (row j k).val - 1024 * (i 2).val = k.val; rw [row_val, hj]; omega

theorem patch_miss (i : grid0.Coords) (s : Vec Ideal S1x4096 .f32) (w : Vec Ideal S1x1024 .f32) (j : Fin 4) (hj : (i 2).val = j.val)
    (u : Fin 1) (cc : Fin 4096) (hcc : cc.val / 1024 ≠ j.val) : patch i s w (ix2 u cc) = s (ix2 u cc) := by
  unfold patch
  rw [dif_neg]
  intro h
  have h1 := h (1 : Fin 2)
  have h1' : 1024 * (i 2).val ≤ cc.val ∧ cc.val < 1024 * (i 2).val + 1024 := h1
  rw [hj] at h1'
  omega

theorem rowSlice_apply (i : grid0.Coords) (s : Vec Ideal S1x4096 .f32) (j : Fin 4) (hj : (i 2).val = j.val) (u : Fin 1) (k : Fin 1024) :
    rowSlice i s (ix2 u k) = s (ix2 (0 : Fin 1) (row j k)) := by
  show s ((Rect.unit (s := S1x4096) (k0_off1 i) S1x1024.size (k0_off1_inb i)).emb (ix2 u k)) = _
  refine congrArg s (funext fun a => Fin.ext ?_)
  have hu : u.val = 0 := by have := u.isLt; omega
  match a with
  | ⟨0, _⟩ => show k0_off1 i 0 + 1 * u.val = 0; rw [k0_off1_eq]; show 0 + 1 * u.val = 0; omega
  | ⟨1, _⟩ => show k0_off1 i 1 + 1 * k.val = (row j k).val; rw [k0_off1_eq, row_val]; show 1024 * (i 2).val + 1 * k.val = _; rw [hj]; omega

/-! ## The point before -/

theorem prev_b (n : ℕ) (h : n < cfg0.N) (h' : n - 1 < cfg0.N) (hn : ¬n % 16 = 0) : bOf ⟨n - 1, h'⟩ = bOf ⟨n, h⟩ :=
  Fin.ext (by rw [bOf_val, bOf_val]; show (n - 1) / 16 = n / 16; omega)
theorem prev_ni (n : ℕ) (h : n < cfg0.N) (h' : n - 1 < cfg0.N) (hn : ¬n % 4 = 0) : niOf ⟨n - 1, h'⟩ = niOf ⟨n, h⟩ :=
  Fin.ext (by rw [niOf_val, niOf_val]; show (n - 1) / 4 % 4 = n / 4 % 4; omega)
theorem prev_mi (n : ℕ) (h : n < cfg0.N) (h' : n - 1 < cfg0.N) (hn : ¬n % 4 = 0) : (miOf ⟨n - 1, h'⟩).val + 1 = (miOf ⟨n, h⟩).val := by
  rw [miOf_val, miOf_val]; show (n - 1) % 4 + 1 = n % 4; omega

/-! ## The column accumulator -/

/-- After point t the column accumulator's entry r is the minimum of the clamped squared distances from target point
    1024·ni + r to the first 1024·(mi + 1) predicted points. -/
theorem col_inv (n : ℕ) : ∀ (h : n < cfg0.N) (r : Fin 1024) (u : Fin 1),
    colAcc m c n h (ix2 r u)
      = rowPart (A m c) (P m c) (bOf ⟨n, h⟩) (row (niOf ⟨n, h⟩) r) (1024 * ((miOf ⟨n, h⟩).val + 1)) := by
  induction n using Nat.strong_induction_on with
  | _ n ih =>
    intro h r u
    have hN : n < 128 := lt_of_lt_of_eq h (show cfg0.N = 128 from N_0)
    rw [col_step m c ⟨n, h⟩, newCol_apply]
    unfold rowPart
    refine min_block (fun k => D (A m c) (P m c) (bOf ⟨n, h⟩) (row (niOf ⟨n, h⟩) r) k) (miOf ⟨n, h⟩) _ ?_
    by_cases h1 : n % 4 = 0
    · have e : (miOf ⟨n, h⟩).val = 0 := by rw [miOf_val]; exact h1
      rw [e, Nat.mul_zero, below_zero, if_pos h1, pay7_apply, pinf_eq_top]
    · have h' : n - 1 < cfg0.N := lt_of_le_of_lt (Nat.sub_le _ _) h
      have hn16 : ¬n % 16 = 0 := by omega
      rw [if_neg h1, ih (n - 1) (by omega) h' r u, prev_b n h h' hn16, prev_ni n h h' h1, prev_mi n h h' h1]
      rfl

/-! ## The row accumulator -/

/-- How many target points the row accumulator's entry for a predicted point of block q has seen after point n. -/
def seen (n q : ℕ) : ℕ := if q ≤ n % 4 then 1024 * (n / 4 % 4 + 1) else 1024 * (n / 4 % 4)

theorem seen_prev_hit (n q : ℕ) (hn : ¬n % 16 = 0) (hq : q = n % 4) : seen (n - 1) q = 1024 * (n / 4 % 4) := by
  unfold seen; split_ifs <;> omega
theorem seen_prev_miss (n q : ℕ) (hn : ¬n % 16 = 0) (hq : q ≠ n % 4) (hq4 : q < 4) : seen (n - 1) q = seen n q := by
  unfold seen; split_ifs <;> omega
theorem seen_hit (n q : ℕ) (hq : q = n % 4) : seen n q = 1024 * (n / 4 % 4 + 1) := by
  unfold seen; rw [if_pos (by omega)]
theorem seen_first_miss (n q : ℕ) (hn : n % 16 = 0) (hq : q ≠ n % 4) : seen n q = 0 := by
  unfold seen; split_ifs <;> omega

/-- After point t the row accumulator's entry for predicted point cc is the minimum of the clamped squared distances to it
    from the target points seen so far. -/
theorem row_inv (n : ℕ) : ∀ (h : n < cfg0.N) (u : Fin 1) (cc : Fin 4096),
    rowAcc m c n h (ix2 u cc) = colPart (A m c) (P m c) (bOf ⟨n, h⟩) cc (seen n (cc.val / 1024)) := by
  induction n using Nat.strong_induction_on with
  | _ n ih =>
    intro h u cc
    have hN : n < 128 := lt_of_lt_of_eq h (show cfg0.N = 128 from N_0)
    have hj : ((grid0.coords ⟨n, h⟩) 2).val = (miOf ⟨n, h⟩).val := (coords2 ⟨n, h⟩).trans (miOf_val _).symm
    have hq4 : cc.val / 1024 < 4 := by have := cc.isLt; omega
    rw [row_step m c ⟨n, h⟩]
    unfold colPart rowUpd
    by_cases hq : cc.val / 1024 = n % 4
    · -- the predicted point lies in the point's tile: its entry is joined with the tile's column minimum
      obtain ⟨k, rfl⟩ : ∃ k : Fin 1024, cc = row (miOf ⟨n, h⟩) k :=
        ⟨⟨cc.val - 1024 * (n % 4), by omega⟩, Fin.ext (by rw [row_val, miOf_val]; show cc.val = 1024 * (n % 4) + (cc.val - 1024 * (n % 4)); omega)⟩
      rw [patch_hit _ _ _ (miOf ⟨n, h⟩) hj u k, newRow_apply, rowSlice_apply _ _ (miOf ⟨n, h⟩) hj, seen_hit n _ hq]
      refine min_block (fun i => D (A m c) (P m c) (bOf ⟨n, h⟩) i (row (miOf ⟨n, h⟩) k)) (niOf ⟨n, h⟩) _ ?_
      by_cases h0 : n % 16 = 0
      · have e : (niOf ⟨n, h⟩).val = 0 := by rw [niOf_val]; show n / 4 % 4 = 0; omega
        rw [e, Nat.mul_zero, below_zero, if_pos h0, pay6_apply, pinf_eq_top]
      · have h' : n - 1 < cfg0.N := lt_of_le_of_lt (Nat.sub_le _ _) h
        rw [if_neg h0, ih (n - 1) (by omega) h' 0 (row (miOf ⟨n, h⟩) k), prev_b n h h' h0, seen_prev_hit n _ h0 hq]
        rfl
    · -- elsewhere the entry is what it was
      rw [patch_miss _ _ _ (miOf ⟨n, h⟩) hj u cc (by rw [miOf_val]; exact hq)]
      by_cases h0 : n % 16 = 0
      · rw [if_pos h0, pay6_apply, pinf_eq_top, seen_first_miss n _ h0 hq]
        exact (below_zero _).symm
      · have h' : n - 1 < cfg0.N := lt_of_le_of_lt (Nat.sub_le _ _) h
        rw [if_neg h0, ih (n - 1) (by omega) h' u cc, prev_b n h h' h0, seen_prev_miss n _ h0 hq hq4]
        rfl

/-! ## The output blocks -/

/-- Where a sweep over the predicted points ends, the first output block holds the complete rows of its target points. -/
theorem out2_val (t : Fin cfg0.N) (h2 : t.val % 4 = 3) (u : Fin 1) (r : Fin 1024) (w : Fin 1) :
    (outsAt0 m c t.val t.isLt).1 (ix3 u r w) = completeRows (A m c) (P m c) (ix3 (bOf t) (row (niOf t) r) (0 : Fin 1)) := by
  rw [out2_eq m c t h2, pay4_apply, col_inv m c t.val t.isLt r 0]
  have e : (miOf t).val = 3 := by rw [miOf_val]; exact h2
  unfold completeRows rowMin rowPart
  rw [e, below_all]

/-- Where a batch ends, the second output block holds the accuracy rows of the batch's predicted points. -/
theorem out3_val (t : Fin cfg0.N) (h3 : t.val % 16 = 15) (u : Fin 1) (cc : Fin 4096) (w : Fin 1) :
    (outsAt0 m c t.val t.isLt).2.1 (ix3 u cc w) = accuracyRows (A m c) (P m c) (ix3 (bOf t) cc (0 : Fin 1)) := by
  rw [out3_eq m c t h3, pay5_apply, row_inv m c t.val t.isLt 0 cc]
  have e : seen t.val (cc.val / 1024) = 4096 := by
    have := cc.isLt
    unfold seen; split_ifs <;> omega
  unfold accuracyRows colMin colPart
  rw [e, below_all]

end Cert.KernelIdeal.Inv

end
-- ==== Proof.Cover.lean ====
import proofs.«156787_j1924145348887_2_alg».proof.Proof.Gen.KernelIdeal.Frame
import proofs.«156787_j1924145348887_2_alg».proof.Proof.Blocks
import Idealize.ShloMosaic.Lib.Pipeline.Value
import Idealize.ShloMosaic.Lib.ValueIdx
import Idealize.ShloMosaic.Lib.Tactic

/-
  From what the two output staging buffers hold at their write-back points to the whole result arrays.

  The first output array, 8 × 4096 × 1, is written back in blocks of 1024 rows: after the last predicted block of each
  (batch, target block) pair — the points t with t mod 4 = 3 — block (b, ni) receives the staging buffer. The second,
  also 8 × 4096 × 1, is written back a whole batch at a time, after the last point of each batch — t mod 16 = 15.
  Both families of blocks tile their arrays: row n of batch b lies in block n / 1024 of batch b, written back at point
  16·b + 4·(n / 1024) + 3, and batch b of the second array is written back at point 16·b + 15. So an array ends equal to
  any function G that every written-back block agrees with.
-/

noncomputable section

namespace Cert.KernelIdeal.Cover

open Cert.KernelIdeal Cert.KernelIdeal.Gen Cert.KernelIdeal.Blocks Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## The block indices, decided over the grid -/

/-- The first output window's block index at point `t` is (b, ni, 0). -/
theorem index2 : ∀ t : Fin cfg0.N, win0_2.index t (0 : Fin 3) = t.val / 16
    ∧ win0_2.index t (1 : Fin 3) = t.val / 4 % 4 ∧ win0_2.index t (2 : Fin 3) = 0 :=
  (by decide +kernel : ∀ t : Fin grid0.N, _)

/-- The second output window's block index at point `t` is (b, 0, 0). -/
theorem index3 : ∀ t : Fin cfg0.N, win0_3.index t (0 : Fin 3) = t.val / 16
    ∧ win0_3.index t (1 : Fin 3) = 0 ∧ win0_3.index t (2 : Fin 3) = 0 :=
  (by decide +kernel : ∀ t : Fin grid0.N, _)

/-! ## Membership in a block -/

/-- An index of the first output array is in point `t`'s block iff each coordinate is in the block's range on its axis. -/
theorem mem_blk2 (t : Fin cfg0.N) (i : S8x4096x1.Idx) :
    i ∈ ((cfg0.win 2).blk t).view.set ↔ ∀ a : Fin 3, win0_2.index t a * S1x1024x1.size a ≤ (i a).val
      ∧ (i a).val < win0_2.index t a * S1x1024x1.size a + S1x1024x1.size a := by
  show i ∈ ((View.whole main_v1_0).slice (win0_2.rect t)).set ↔ _
  rw [View.set_slice_whole, Rect.mem_set_unit]
  exact Iff.rfl

/-- The same for the second output array. -/
theorem mem_blk3 (t : Fin cfg0.N) (i : S8x4096x1.Idx) :
    i ∈ ((cfg0.win 3).blk t).view.set ↔ ∀ a : Fin 3, win0_3.index t a * S1x4096x1.size a ≤ (i a).val
      ∧ (i a).val < win0_3.index t a * S1x4096x1.size a + S1x4096x1.size a := by
  show i ∈ ((View.whole main_v1_1).slice (win0_3.rect t)).set ↔ _
  rw [View.set_slice_whole, Rect.mem_set_unit]
  exact Iff.rfl

/-! ## The first output array -/

/-- What a write-back point writes is its block of `G`. -/
theorem flushed2_eq (c : Dev nD) (G : S8x4096x1.Idx → EReal)
    (h : ∀ t : Fin cfg0.N, t.val % 4 = 3 → ∀ (u : Fin 1) (r : Fin 1024) (w : Fin 1),
      (outsAt0 m c t.val t.isLt).1 (ix3 u r w) = G (ix3 (bOf t) (row (niOf t) r) (0 : Fin 1)))
    (t : Fin cfg0.N) (hf : (cfg0.win 2).flush t = true) :
    (dats m 0 c).flushed 2 t = ((cfg0.win 2).blk t).view.read (Elt Ideal) G := by
  have h3 : t.val % 4 = 3 := (flush0_2 t).mp hf
  obtain ⟨e0, e1, e2⟩ := index2 t
  show (cfg0.win 2).cut (grid0.coords t) ((dats m 0 c).after 2 t) = _
  rw [after0_2]
  have key : ∀ y : S1x1024x1.Idx, (outsAt0 m c t.val t.isLt).1 y = G (((cfg0.win 2).blk t).view.emb y) := by
    intro y
    obtain ⟨u, r, w, rfl⟩ : ∃ (u : Fin 1) (r : Fin 1024) (w : Fin 1), y = ix3 u r w := ⟨y 0, y 1, y 2, eq_ix3 y⟩
    rw [h t h3 u r w]
    refine congrArg G ?_
    funext a
    apply Fin.ext
    have hu := u.isLt
    have hw := w.isLt
    match a with
    | ⟨0, _⟩ => show t.val / 16 = win0_2.index t (0 : Fin 3) * 1 + 1 * u.val; rw [e0]; omega
    | ⟨1, _⟩ => show 1024 * (t.val / 4 % 4) + r.val = win0_2.index t (1 : Fin 3) * 1024 + 1 * r.val; rw [e1]; omega
    | ⟨2, _⟩ => show 0 = win0_2.index t (2 : Fin 3) * 1 + 1 * w.val; rw [e2]; omega
  funext j
  exact key j

/-- Every row of every batch is in the block of some write-back point. -/
theorem cover2 (i : S8x4096x1.Idx) : ∃ t : Fin cfg0.N, (cfg0.win 2).flush t = true ∧ i ∈ ((cfg0.win 2).blk t).view.set := by
  have hN : cfg0.N = 128 := N_0
  have h0 : (i 0).val < 8 := (i 0).isLt
  have h1 : (i 1).val < 4096 := (i 1).isLt
  have h2 : (i 2).val < 1 := (i 2).isLt
  refine ⟨⟨16 * (i 0).val + 4 * ((i 1).val / 1024) + 3, by omega⟩, (flush0_2 _).mpr (by show (16 * (i 0).val + 4 * ((i 1).val / 1024) + 3) % 4 = 3; omega), ?_⟩
  obtain ⟨e0, e1, e2⟩ := index2 ⟨16 * (i 0).val + 4 * ((i 1).val / 1024) + 3, by omega⟩
  rw [mem_blk2]
  intro a
  match a with
  | ⟨0, _⟩ => show win0_2.index _ (0 : Fin 3) * 1 ≤ (i 0).val ∧ (i 0).val < win0_2.index _ (0 : Fin 3) * 1 + 1; rw [e0]; show (16 * (i 0).val + 4 * ((i 1).val / 1024) + 3) / 16 * 1 ≤ _ ∧ _ < (16 * (i 0).val + 4 * ((i 1).val / 1024) + 3) / 16 * 1 + 1; omega
  | ⟨1, _⟩ => show win0_2.index _ (1 : Fin 3) * 1024 ≤ (i 1).val ∧ (i 1).val < win0_2.index _ (1 : Fin 3) * 1024 + 1024; rw [e1]; show (16 * (i 0).val + 4 * ((i 1).val / 1024) + 3) / 4 % 4 * 1024 ≤ _ ∧ _ < (16 * (i 0).val + 4 * ((i 1).val / 1024) + 3) / 4 % 4 * 1024 + 1024; omega
  | ⟨2, _⟩ => show win0_2.index _ (2 : Fin 3) * 1 ≤ (i 2).val ∧ (i 2).val < win0_2.index _ (2 : Fin 3) * 1 + 1; rw [e2]; omega

/-- The first output array ends equal to any `G` that every written-back block agrees with. -/
theorem final2 (c : Dev nD) (G : S8x4096x1.Idx → EReal)
    (h : ∀ t : Fin cfg0.N, t.val % 4 = 3 → ∀ (u : Fin 1) (r : Fin 1024) (w : Fin 1),
      (outsAt0 m c t.val t.isLt).1 (ix3 u r w) = G (ix3 (bOf t) (row (niOf t) r) (0 : Fin 1))) :
    (dats m 0 c).arrAt 2 cfg0.N = G :=
  (dats m 0 c).arrAt_eq_of_cover 2 G (flushed2_eq m c G h) cover2

/-! ## The second output array -/

/-- What a write-back point writes is its block of `G`. -/
theorem flushed3_eq (c : Dev nD) (G : S8x4096x1.Idx → EReal)
    (h : ∀ t : Fin cfg0.N, t.val % 16 = 15 → ∀ (u : Fin 1) (cc : Fin 4096) (w : Fin 1),
      (outsAt0 m c t.val t.isLt).2.1 (ix3 u cc w) = G (ix3 (bOf t) cc (0 : Fin 1)))
    (t : Fin cfg0.N) (hf : (cfg0.win 3).flush t = true) :
    (dats m 0 c).flushed 3 t = ((cfg0.win 3).blk t).view.read (Elt Ideal) G := by
  have h15 : t.val % 16 = 15 := (flush0_3 t).mp hf
  obtain ⟨e0, e1, e2⟩ := index3 t
  show (cfg0.win 3).cut (grid0.coords t) ((dats m 0 c).after 3 t) = _
  rw [after0_3]
  have key : ∀ y : S1x4096x1.Idx, (outsAt0 m c t.val t.isLt).2.1 y = G (((cfg0.win 3).blk t).view.emb y) := by
    intro y
    obtain ⟨u, cc, w, rfl⟩ : ∃ (u : Fin 1) (cc : Fin 4096) (w : Fin 1), y = ix3 u cc w := ⟨y 0, y 1, y 2, eq_ix3 y⟩
    rw [h t h15 u cc w]
    refine congrArg G ?_
    funext a
    apply Fin.ext
    have hu := u.isLt
    have hw := w.isLt
    match a with
    | ⟨0, _⟩ => show t.val / 16 = win0_3.index t (0 : Fin 3) * 1 + 1 * u.val; rw [e0]; omega
    | ⟨1, _⟩ => show cc.val = win0_3.index t (1 : Fin 3) * 4096 + 1 * cc.val; rw [e1]; omega
    | ⟨2, _⟩ => show 0 = win0_3.index t (2 : Fin 3) * 1 + 1 * w.val; rw [e2]; omega
  funext j
  exact key j

/-- Every batch is the block of some write-back point. -/
theorem cover3 (i : S8x4096x1.Idx) : ∃ t : Fin cfg0.N, (cfg0.win 3).flush t = true ∧ i ∈ ((cfg0.win 3).blk t).view.set := by
  have hN : cfg0.N = 128 := N_0
  have h0 : (i 0).val < 8 := (i 0).isLt
  have h1 : (i 1).val < 4096 := (i 1).isLt
  have h2 : (i 2).val < 1 := (i 2).isLt
  refine ⟨⟨16 * (i 0).val + 15, by omega⟩, (flush0_3 _).mpr (by show (16 * (i 0).val + 15) % 16 = 15; omega), ?_⟩
  obtain ⟨e0, e1, e2⟩ := index3 ⟨16 * (i 0).val + 15, by omega⟩
  rw [mem_blk3]
  intro a
  match a with
  | ⟨0, _⟩ => show win0_3.index _ (0 : Fin 3) * 1 ≤ (i 0).val ∧ (i 0).val < win0_3.index _ (0 : Fin 3) * 1 + 1; rw [e0]; show (16 * (i 0).val + 15) / 16 * 1 ≤ _ ∧ _ < (16 * (i 0).val + 15) / 16 * 1 + 1; omega
  | ⟨1, _⟩ => show win0_3.index _ (1 : Fin 3) * 4096 ≤ (i 1).val ∧ (i 1).val < win0_3.index _ (1 : Fin 3) * 4096 + 4096; rw [e1]; omega
  | ⟨2, _⟩ => show win0_3.index _ (2 : Fin 3) * 1 ≤ (i 2).val ∧ (i 2).val < win0_3.index _ (2 : Fin 3) * 1 + 1; rw [e2]; omega

/-- The second output array ends equal to any `G` that every written-back block agrees with. -/
theorem final3 (c : Dev nD) (G : S8x4096x1.Idx → EReal)
    (h : ∀ t : Fin cfg0.N, t.val % 16 = 15 → ∀ (u : Fin 1) (cc : Fin 4096) (w : Fin 1),
      (outsAt0 m c t.val t.isLt).2.1 (ix3 u cc w) = G (ix3 (bOf t) cc (0 : Fin 1))) :
    (dats m 0 c).arrAt 3 cfg0.N = G :=
  (dats m 0 c).arrAt_eq_of_cover 3 G (flushed3_eq m c G h) cover3

end Cert.KernelIdeal.Cover

end
-- ==== Proof.Tail.lean ====
import proofs.«156787_j1924145348887_2_alg».proof.Proof.Gen.KernelIdeal.Frame
import proofs.«156787_j1924145348887_2_alg».proof.Proof.ChamferSpec
import Idealize.ShloMosaic.PureOps.Ideal.Laws
import Idealize.ShloMosaic.Lib.StableHlo.Run
import Idealize.ShloMosaic.Lib.Tactic

/-
  The host operations after the region: from the two row arrays the region leaves to the three results.

  Each row array is summed from zero over all of its 32768 entries and divided by 32768 — its mean —, and the third
  result is half the sum of the two means. The operations are read off at ANY contents of the buffers they start from;
  after the region those are the pipeline's arrays as the write-backs left them and every other buffer as it was.
-/

noncomputable section

namespace Cert.KernelIdeal.Tail

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-! ## The operations, from any contents -/

/-- The sum of every entry from zero, divided by 32768, is the mean of a row array. -/
theorem mean_eq (x : S8x4096x1.Idx → EReal) (i : S_.Idx) :
    Host.divf (F := Ideal) (Host.reduceAdd (F := Ideal) (φ := .f32) x (constant (F := Ideal) S_ .f32 0x00000000#32) reducesTo_S8x4096x1_S_d0_1_2 h_S_)
        (constant (F := Ideal) S_ .f32 0x47000000#32) i = Chamfer.mean x := by
  show Ideal.div (Host.reduceAdd (F := Ideal) (φ := .f32) x (constant (F := Ideal) S_ .f32 0x00000000#32) reducesTo_S8x4096x1_S_d0_1_2 h_S_ i) _ = _
  simp only [Host.reduceAdd, Ideal.hostReduceAdd_def]
  rw [Ideal.hostReduceAdd_total reducesTo_S8x4096x1_S_d0_1_2 (fun b => b.elim0)]
  rfl

/-- The first mean is the mean of the first row array. -/
theorem after_v3 (W : Valuation τ sig (Elt Ideal)) :
    StableHlo.after hostOps1 W (Proc.devRef .tc main_v3)
      = fun _ => Chamfer.mean (W (Proc.devRef .tc main_v1_0) : S8x4096x1.Idx → EReal) := by
  after_results
  funext i
  exact mean_eq _ i

/-- The second mean is the mean of the second row array. -/
theorem after_v5 (W : Valuation τ sig (Elt Ideal)) :
    StableHlo.after hostOps1 W (Proc.devRef .tc main_v5)
      = fun _ => Chamfer.mean (W (Proc.devRef .tc main_v1_1) : S8x4096x1.Idx → EReal) := by
  after_results
  funext i
  exact mean_eq _ i

/-- The last result is half the sum of the two means. -/
theorem after_v7 (W : Valuation τ sig (Elt Ideal)) :
    StableHlo.after hostOps1 W (Proc.devRef .tc main_v7)
      = fun _ => Chamfer.half * (Chamfer.mean (W (Proc.devRef .tc main_v1_0) : S8x4096x1.Idx → EReal)
          + Chamfer.mean (W (Proc.devRef .tc main_v1_1) : S8x4096x1.Idx → EReal)) := by
  after_results
  funext i
  show Chamfer.half * (_ + _) = _
  rw [mean_eq _ i, mean_eq _ i]

/-! ## After the region -/

/-- The operations after the region start from the first row array as the write-backs left it. -/
theorem arr2_eq (c : Dev nD) :
    Pipeline.withArrays (cfgs 0).spec c (V0 m c) (fun w => (dats m 0 c).arrAt w (cfgs 0).N) (Proc.devRef .tc main_v1_0)
      = (dats m 0 c).arrAt 2 cfg0.N :=
  Pipeline.withArrays_arr spec0 launch0.win.arr_inj c _ _ 2

/-- … and from the second row array as the write-backs left it. -/
theorem arr3_eq (c : Dev nD) :
    Pipeline.withArrays (cfgs 0).spec c (V0 m c) (fun w => (dats m 0 c).arrAt w (cfgs 0).N) (Proc.devRef .tc main_v1_1)
      = (dats m 0 c).arrAt 3 cfg0.N :=
  Pipeline.withArrays_arr spec0 launch0.win.arr_inj c _ _ 3

theorem tail_v3 (c : Dev nD) (O0 : S8x4096x1.Idx → EReal) (h0 : (dats m 0 c).arrAt 2 cfg0.N = O0) :
    Pipeline.afterTail₀ cfgs (dats m) 0 (V0 m) [hostOps1] c main_v3 = fun _ => Chamfer.mean O0 := by
  unfold Pipeline.afterTail₀
  show StableHlo.after hostOps1 _ (Proc.devRef .tc main_v3) = _
  rw [after_v3, arr2_eq, h0]

theorem tail_v5 (c : Dev nD) (O1 : S8x4096x1.Idx → EReal) (h1 : (dats m 0 c).arrAt 3 cfg0.N = O1) :
    Pipeline.afterTail₀ cfgs (dats m) 0 (V0 m) [hostOps1] c main_v5 = fun _ => Chamfer.mean O1 := by
  unfold Pipeline.afterTail₀
  show StableHlo.after hostOps1 _ (Proc.devRef .tc main_v5) = _
  rw [after_v5, arr3_eq, h1]

theorem tail_v7 (c : Dev nD) (O0 O1 : S8x4096x1.Idx → EReal) (h0 : (dats m 0 c).arrAt 2 cfg0.N = O0)
    (h1 : (dats m 0 c).arrAt 3 cfg0.N = O1) :
    Pipeline.afterTail₀ cfgs (dats m) 0 (V0 m) [hostOps1] c main_v7
      = fun _ => Chamfer.half * (Chamfer.mean O0 + Chamfer.mean O1) := by
  unfold Pipeline.afterTail₀
  show StableHlo.after hostOps1 _ (Proc.devRef .tc main_v7) = _
  rw [after_v7, arr2_eq, arr3_eq, h0, h1]

/-! ## The run, read -/

/-- Every execution ends with the three results at the two means and half their sum, the arguments unchanged, whenever
    the two row arrays end at `O0` and `O1`. -/
theorem run_tail (O0 O1 : (c : Dev nD) → S8x4096x1.Idx → EReal) (h0 : ∀ c, (dats m 0 c).arrAt 2 cfg0.N = O0 c)
    (h1 : ∀ c, (dats m 0 c).arrAt 3 cfg0.N = O1 c) :
    θ_run defs (onTc (τ := τ) (main (F := Ideal))) ⟨m, fun _ => 0, ρ⟩ (fun r => ∀ c : Dev nD,
      r.2.mem ((c.tc : Thread nD τ).loc main_v5) = (fun _ => Chamfer.mean (O1 c))
      ∧ r.2.mem ((c.tc : Thread nD τ).loc main_v3) = (fun _ => Chamfer.mean (O0 c))
      ∧ r.2.mem ((c.tc : Thread nD τ).loc main_v7) = (fun _ => Chamfer.half * (Chamfer.mean (O0 c) + Chamfer.mean (O1 c)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v5 (Pipeline.mem_restRefs_of main_v5 (by decide) (by decide))).trans (tail_v5 m c _ (h1 c)),
      ((h c).2 main_v3 (Pipeline.mem_restRefs_of main_v3 (by decide) (by decide))).trans (tail_v3 m c _ (h0 c)),
      ((h c).2 main_v7 (Pipeline.mem_restRefs_of main_v7 (by decide) (by decide))).trans (tail_v7 m c _ _ (h0 c) (h1 c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Tail

end
-- ==== Proof.Result.lean ====
/-
  The idealized kernel's run, read: its three results are the Chamfer quantities of the argument arrays.

  The first output array is written back block by block where a sweep over the predicted points ends, each block holding
  the complete rows of its 1024 target points; the second is written back where a batch ends, holding the batch's accuracy
  rows. The blocks cover the two arrays, so after the region they are the complete rows and the accuracy rows of the whole
  arguments, and the host operations after the region take their means and half the sum of the means.
-/
import proofs.«156787_j1924145348887_2_alg».proof.Proof.Invariant
import proofs.«156787_j1924145348887_2_alg».proof.Proof.Cover
import proofs.«156787_j1924145348887_2_alg».proof.Proof.Tail

noncomputable section

namespace Cert.KernelIdeal.Result

open Idealize.ShloMosaic Idealize.ShloMosaic.TcCoe Idealize.SL.Sem
open Cert.KernelIdeal Cert.KernelIdeal.Gen Cert.KernelIdeal.Inv Cert.Chamfer

variable (m : (ℓ : Loc nD τ sig) → Buf (Elt Ideal) ℓ) (ρ : Dev nD → PrngReg)

/-- After the region the first output array holds the complete rows. -/
theorem complete_rows (c : Dev nD) : (dats m 0 c).arrAt 2 cfg0.N = completeRows (A m c) (P m c) :=
  Cert.KernelIdeal.Cover.final2 m c _ fun t h u r w => out2_val m c t h u r w

/-- After the region the second output array holds the accuracy rows. -/
theorem accuracy_rows (c : Dev nD) : (dats m 0 c).arrAt 3 cfg0.N = accuracyRows (A m c) (P m c) :=
  Cert.KernelIdeal.Cover.final3 m c _ fun t h u cc w => out3_val m c t h u cc w

/-- Every weakly fair execution of the idealized kernel terminates with its results at the accuracy, the complete and the
    Chamfer value of the argument arrays, the arguments unchanged. -/
theorem run : θ_run defs (onTc (τ := τ) (main (F := Ideal))) ⟨m, fun _ => 0, ρ⟩ (fun r => ∀ c : Dev nD,
      r.2.mem ((c.tc : Thread nD τ).loc main_v5) = (fun _ => accuracy (A m c) (P m c))
      ∧ r.2.mem ((c.tc : Thread nD τ).loc main_v3) = (fun _ => complete (A m c) (P m c))
      ∧ r.2.mem ((c.tc : Thread nD τ).loc main_v7) = (fun _ => chamfer (A m c) (P m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Cert.KernelIdeal.Tail.run_tail m ρ (fun c => completeRows (A m c) (P m c)) (fun c => accuracyRows (A m c) (P m c))
    (complete_rows m) (accuracy_rows m)

end Cert.KernelIdeal.Result

end
-- ==== Proof.RefValue.lean ====
import proofs.«156787_j1924145348887_2_alg».proof.Proof.Gen.ReferenceIdeal.Read
import proofs.«156787_j1924145348887_2_alg».proof.Proof.ChamferSpec
import Idealize.ShloMosaic.PureOps.Reduce
import Idealize.ShloMosaic.PureOps.Ideal.Laws
import Idealize.ShloMosaic.Lib.ValueIdx

/-
  The three results of the reference program are the Chamfer quantities in the spelling of a plain array program.

  Read one element at a time: entry (b, n, m) of the distance array is √ of the clamped expansion
  (‖a‖² + ‖p‖²) − 2⟨a, p⟩ for a = trgt[b, n, ·] and p = pred[b, m, ·], each norm a sum over the three coordinates from
  zero and the inner product a sum over them. A minimum-reduction from +∞ along one axis is the infimum over that axis's
  coordinates (the fold of `min` from ⊤ over a finite set is its `Finset.inf`), so the reduction over the last axis gives
  every target point's distance to the nearest predicted point and the one over the middle axis gives every predicted
  point's distance to the nearest target point. Each is then summed from zero over the 4096 points and divided by 4096,
  summed from zero over the 8 batches and divided by 8; the last result is half the sum of the two means.
-/

noncomputable section

namespace Cert.ReferenceIdeal.RefValue

open Cert.ReferenceIdeal Cert.ReferenceIdeal.Gen Cert.ReferenceIdeal.Read Idealize.ShloMosaic Idealize.ShloMosaic.ValueIdx

/-- The point arrays: 8 batches of 4096 points of 3 coordinates, as extended reals. -/
abbrev Arr : Type := (⟨S8x4096x3, .f32⟩ : BufTy).Contents (Elt Ideal)

/-! ## The indices the operations read -/

private theorem idx1_ix (b : Fin 8) (n : Fin 4096) (k : Fin 3) : idx_main_v1 (ix2 b n) k = ix3 b n k := by
  funext a; match a with | ⟨0, _⟩ => rfl | ⟨1, _⟩ => rfl | ⟨2, _⟩ => rfl

private theorem idx3_ix (b : Fin 8) (m : Fin 4096) (k : Fin 3) : idx_main_v3 (ix2 b m) k = ix3 b m k := by
  funext a; match a with | ⟨0, _⟩ => rfl | ⟨1, _⟩ => rfl | ⟨2, _⟩ => rfl

private theorem lidx4_ix (b : Fin 8) (n m : Fin 4096) (k : Fin 3) : lidx_main_v4 (ix3 b n m) k = ix3 b n k := by
  funext a; match a with | ⟨0, _⟩ => rfl | ⟨1, _⟩ => rfl | ⟨2, _⟩ => rfl

private theorem ridx4_ix (b : Fin 8) (n m : Fin 4096) (k : Fin 3) : ridx_main_v4 (ix3 b n m) k = ix3 b m k := by
  funext a; match a with | ⟨0, _⟩ => rfl | ⟨1, _⟩ => rfl | ⟨2, _⟩ => rfl

private theorem idx57_ix (b : Fin 8) (n m : Fin 4096) : idx_main_v5 (idx_main_v7 (ix3 b n m)) = ix2 b n := by
  funext a; match a with | ⟨0, _⟩ => rfl | ⟨1, _⟩ => rfl

private theorem idx68_ix (b : Fin 8) (n m : Fin 4096) : idx_main_v6 (idx_main_v8 (ix3 b n m)) = ix2 b m := by
  funext a; match a with | ⟨0, _⟩ => rfl | ⟨1, _⟩ => rfl

private theorem idx17_ix (b : Fin 8) (k : Fin 4096) : idx_main_v17 (ix1 b) k = ix2 b k := by
  funext a; match a with | ⟨0, _⟩ => rfl | ⟨1, _⟩ => rfl

private theorem idx21_ix (b : Fin 8) (k : Fin 4096) : idx_main_v21 (ix1 b) k = ix2 b k := by
  funext a; match a with | ⟨0, _⟩ => rfl | ⟨1, _⟩ => rfl

/-! ## One entry of the distance array -/

/-- ‖a‖² of target point `n` of batch `b`: the sum of the squared coordinates, from zero. -/
private theorem v1_at (A : Arr) (b : Fin 8) (n : Fin 4096) :
    val_main_v1 (F := Ideal) A (ix2 b n) = Chamfer.sq3R (Chamfer.pt A b n) := by
  rw [val_main_v1_apply, val_main_cst_apply]
  show _ + ∑ k : Fin 3, _ = Chamfer.zero + ∑ d : Fin 3, A (ix3 b n d) * A (ix3 b n d)
  refine congrArg (_ + ·) (Finset.sum_congr rfl fun k _ => ?_)
  rw [val_main_v0_apply, idx1_ix]
  rfl

/-- ‖p‖² of predicted point `m` of batch `b`. -/
private theorem v3_at (P : Arr) (b : Fin 8) (m : Fin 4096) :
    val_main_v3 (F := Ideal) P (ix2 b m) = Chamfer.sq3R (Chamfer.pt P b m) := by
  rw [val_main_v3_apply, val_main_cst_0_apply]
  show _ + ∑ k : Fin 3, _ = Chamfer.zero + ∑ d : Fin 3, P (ix3 b m d) * P (ix3 b m d)
  refine congrArg (_ + ·) (Finset.sum_congr rfl fun k _ => ?_)
  rw [val_main_v2_apply, idx3_ix]
  rfl

/-- ⟨a, p⟩: the contraction over the three coordinates. -/
private theorem v4_at (A P : Arr) (b : Fin 8) (n m : Fin 4096) :
    val_main_v4 (F := Ideal) A P (ix3 b n m) = Chamfer.dot3R (Chamfer.pt A b n) (Chamfer.pt P b m) := by
  rw [val_main_v4_apply]
  show ∑ k : Fin 3, _ = ∑ d : Fin 3, A (ix3 b n d) * P (ix3 b m d)
  refine Finset.sum_congr rfl fun k _ => ?_
  rw [lidx4_ix, ridx4_ix]

/-- Entry (b, n, m) of the distance array is the distance between target point `n` and predicted point `m` of batch `b`. -/
theorem v15_at (A P : Arr) (b : Fin 8) (n m : Fin 4096) :
    val_main_v15 (F := Ideal) A P (ix3 b n m) = Chamfer.DR A P b n m := by
  rw [val_main_v15_apply, val_main_v14_apply, val_main_v13_apply, val_main_cst_2_apply, val_main_v12_apply,
    val_main_v11_apply, val_main_v10_apply, val_main_cst_1_apply, v4_at, val_main_v9_apply, val_main_v8_apply,
    val_main_v7_apply, val_main_v6_apply, val_main_v5_apply, idx57_ix, idx68_ix, v1_at, v3_at]
  rfl

/-! ## The two minimum-reductions -/

/-- The shape facts `Shape.Reduces.lift` is defined from (the reference states the `ReducesTo` ones). -/
private theorem red2 : S8x4096x4096.Reduces [2] S8x4096 := by decide
private theorem red1 : S8x4096x4096.Reduces [1] S8x4096 := by decide

/-- The reduced index (b, n) with coordinate `k` put back on the last axis is (b, n, k). -/
private theorem lift2_ix (b : Fin 8) (n : Fin 4096) (k : Fin (S8x4096x4096.size 2)) :
    red2.lift (ix2 b n) k = ix3 b n (⟨k.val, k.isLt⟩ : Fin 4096) := by
  funext c; apply Fin.ext
  fin_cases c <;> rfl

/-- The reduced index (b, m) with coordinate `k` put back on the middle axis is (b, k, m). -/
private theorem lift1_ix (b : Fin 8) (m : Fin 4096) (k : Fin (S8x4096x4096.size 1)) :
    red1.lift (ix2 b m) k = ix3 b (⟨k.val, k.isLt⟩ : Fin 4096) m := by
  funext c; apply Fin.ext
  fin_cases c <;> rfl

private theorem pinf_eq_top : Ideal.ofBits .f32 0x7F800000#32 = (⊤ : EReal) := by simp [Ideal.ofBits, Ideal.ieee]

/-- A fold of the minimum from +∞ over a finite set is the infimum over it. -/
private theorem fold_minimumf_pinf {ι : Type} (s : Finset ι) (g : ι → EReal) :
    s.fold (FloatOps.minimumf (F := Ideal) (φ := .f32)) (Ideal.ofBits .f32 0x7F800000#32) g = s.inf g := by
  rw [pinf_eq_top]
  rfl

/-- The minimum over the predicted points: target point `n`'s distance to the nearest of them. -/
theorem v16_at (A P : Arr) (b : Fin 8) (n : Fin 4096) :
    val_main_v16 (F := Ideal) A P (ix2 b n) = Finset.univ.inf fun m : Fin 4096 => Chamfer.DR A P b n m := by
  unfold val_main_v16
  rw [Host.reduce_eq_fold_single FloatOps.minimumf _ _ reducesTo_S8x4096x4096_S8x4096_d2 red2 h_S_, val_main_cst_3_apply]
  have hf : (val_main_v15 (F := Ideal) A P ∘ red2.lift (ix2 b n)) = fun m : Fin 4096 => Chamfer.DR A P b n m :=
    funext fun m => by
      show val_main_v15 (F := Ideal) A P (red2.lift (ix2 b n) m) = _
      rw [lift2_ix]
      exact v15_at A P b n _
  rw [hf]
  exact fold_minimumf_pinf _ _

/-- The minimum over the target points: predicted point `m`'s distance to the nearest of them. -/
theorem v20_at (A P : Arr) (b : Fin 8) (m : Fin 4096) :
    val_main_v20 (F := Ideal) A P (ix2 b m) = Finset.univ.inf fun n : Fin 4096 => Chamfer.DR A P b n m := by
  unfold val_main_v20
  rw [Host.reduce_eq_fold_single FloatOps.minimumf _ _ reducesTo_S8x4096x4096_S8x4096_d1 red1 h_S_, val_main_cst_6_apply]
  have hf : (val_main_v15 (F := Ideal) A P ∘ red1.lift (ix2 b m)) = fun n : Fin 4096 => Chamfer.DR A P b n m :=
    funext fun n => by
      show val_main_v15 (F := Ideal) A P (red1.lift (ix2 b m) n) = _
      rw [lift1_ix]
      exact v15_at A P b _ m
  rw [hf]
  exact fold_minimumf_pinf _ _

/-! ## The means -/

/-- A rank-1 index set is its one coordinate's range … -/
private def idxEquiv1 {n : Nat} : (⟨1, ![n]⟩ : Shape).Idx ≃ Fin n where
  toFun i := i 0
  invFun b := ix1 b
  left_inv i := (eq_ix1 i).symm
  right_inv _ := rfl

/-- … so a sum over it is the sum over the coordinate. -/
private theorem sum_idx1 {n : Nat} (f : (⟨1, ![n]⟩ : Shape).Idx → EReal) : ∑ i, f i = ∑ b : Fin n, f (ix1 b) := by
  rw [← Equiv.sum_comp (idxEquiv1 (n := n)).symm f]
  rfl

/-- The mean of batch `b`'s "complete" row. -/
private theorem v19_at (A P : Arr) (b : Fin 8) :
    val_main_v19 (F := Ideal) A P (ix1 b)
      = Ideal.div (Chamfer.zero + ∑ n : Fin 4096, Finset.univ.inf fun m : Fin 4096 => Chamfer.DR A P b n m) Chamfer.c4096 := by
  rw [val_main_v19_apply, val_main_v18_apply, val_main_cst_5_apply, val_main_v17_apply, val_main_cst_4_apply]
  show Ideal.div (_ + ∑ k : Fin 4096, _) _ = _
  refine congrArg (fun s => Ideal.div (Chamfer.zero + s) Chamfer.c4096) (Finset.sum_congr rfl fun k _ => ?_)
  rw [idx17_ix, v16_at]

/-- The mean of batch `b`'s "accuracy" row. -/
private theorem v23_at (A P : Arr) (b : Fin 8) :
    val_main_v23 (F := Ideal) A P (ix1 b)
      = Ideal.div (Chamfer.zero + ∑ m : Fin 4096, Finset.univ.inf fun n : Fin 4096 => Chamfer.DR A P b n m) Chamfer.c4096 := by
  rw [val_main_v23_apply, val_main_v22_apply, val_main_cst_8_apply, val_main_v21_apply, val_main_cst_7_apply]
  show Ideal.div (_ + ∑ k : Fin 4096, _) _ = _
  refine congrArg (fun s => Ideal.div (Chamfer.zero + s) Chamfer.c4096) (Finset.sum_congr rfl fun k _ => ?_)
  rw [idx21_ix, v20_at]

/-- The first result, "complete": the mean over the batches of the means of the target points' nearest distances. -/
theorem ref_complete (A P : (⟨Cert.ReferenceIdeal.S8x4096x3, .f32⟩ : BufTy).Contents (Elt Ideal)) :
    Read.val_main_v25 (F := Ideal) A P = fun _ => Cert.Chamfer.completeR A P := by
  funext i
  rw [val_main_v25_apply, val_main_cst_10_apply, val_main_v24_apply, val_main_cst_9_apply, sum_idx1]
  show Ideal.div (_ + ∑ b : Fin 8, _) _ = _
  refine congrArg (fun s => Ideal.div (Chamfer.zero + s) Chamfer.c8) (Finset.sum_congr rfl fun b _ => ?_)
  exact v19_at A P b

/-- The second result, "accuracy": the mean over the batches of the means of the predicted points' nearest distances. -/
theorem ref_accuracy (A P : (⟨Cert.ReferenceIdeal.S8x4096x3, .f32⟩ : BufTy).Contents (Elt Ideal)) :
    Read.val_main_v27 (F := Ideal) A P = fun _ => Cert.Chamfer.accuracyR A P := by
  funext i
  rw [val_main_v27_apply, val_main_cst_12_apply, val_main_v26_apply, val_main_cst_11_apply, sum_idx1]
  show Ideal.div (_ + ∑ b : Fin 8, _) _ = _
  refine congrArg (fun s => Ideal.div (Chamfer.zero + s) Chamfer.c8) (Finset.sum_congr rfl fun b _ => ?_)
  exact v23_at A P b

/-- The third result: half the sum of the two means. -/
theorem ref_chamfer (A P : (⟨Cert.ReferenceIdeal.S8x4096x3, .f32⟩ : BufTy).Contents (Elt Ideal)) :
    Read.val_main_v29 (F := Ideal) A P = fun _ => Cert.Chamfer.chamferR A P := by
  funext i
  rw [val_main_v29_apply, val_main_cst_13_apply, val_main_v28_apply, ref_complete, ref_accuracy]
  rfl

end Cert.ReferenceIdeal.RefValue

end
-- ==== Proof.ChamferAlgebra2.lean ====
/-
  The mean of the means of the rows is the mean of all entries, and with it the array program's three results are
  the specification's: division by a nonzero real is multiplication by its reciprocal, and a nonnegative real factor
  distributes over every finite sum of extended reals.
-/
import proofs.«156787_j1924145348887_2_alg».proof.Proof.ChamferAlgebra

noncomputable section

namespace Cert.Chamfer

open Idealize.ShloMosaic Idealize.ShloMosaic.ValueIdx

/-! ## The mean of the means of the rows is the mean of all entries -/

theorem c32768_eq : c32768 = ((32768 : ℝ) : EReal) := by
  simp [c32768, Ideal.ofBits, Ideal.ieee, -EReal.coe_mul]; norm_num
theorem c4096_eq : c4096 = ((4096 : ℝ) : EReal) := by
  simp [c4096, Ideal.ofBits, Ideal.ieee, -EReal.coe_mul]; norm_num
theorem c8_eq : c8 = ((8 : ℝ) : EReal) := by
  simp [c8, Ideal.ofBits, Ideal.ieee, -EReal.coe_mul]; norm_num

/-- A nonnegative real factor distributes over any finite sum of extended reals: no summand needs to be finite
    or of a given sign, because (y + z) times a nonnegative real is the sum of the products in every case. -/
theorem sum_mul_coe {ι : Type*} (s : Finset ι) (g : ι → EReal) {r : ℝ} (hr : 0 ≤ r) :
    (∑ i ∈ s, g i) * (r : EReal) = ∑ i ∈ s, g i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- The index set of the row arrays is the product of the batch and the row ranges (the third coordinate is 0). -/
def rowsEquiv : Rows.Idx ≃ Fin 8 × Fin 4096 where
  toFun i := (i 0, i 1)
  invFun p := ix3 p.1 p.2 0
  left_inv i := by
    funext a
    match a with
    | ⟨0, _⟩ => rfl
    | ⟨1, _⟩ => rfl
    | ⟨2, _⟩ => exact Subsingleton.elim (α := Fin 1) _ _
  right_inv _ := rfl

/-- A sum over the row arrays' indices is the double sum over batches and rows. -/
theorem sum_rows (x : Fin 8 → Fin 4096 → EReal) :
    ∑ i : Rows.Idx, x (i 0) (i 1) = ∑ b : Fin 8, ∑ n : Fin 4096, x b n := by
  rw [← Equiv.sum_comp rowsEquiv.symm fun i : Rows.Idx => x (i 0) (i 1), Fintype.sum_prod_type]
  rfl

theorem meanR_eq (x : Fin 8 → Fin 4096 → EReal) : meanR x = mean fun i => x (i 0) (i 1) := by
  have h8 : (8 : ℝ) ≠ 0 := by norm_num
  have h4096 : (4096 : ℝ) ≠ 0 := by norm_num
  have h32768 : (32768 : ℝ) ≠ 0 := by norm_num
  have e : (1 / 4096 : ℝ) * (1 / 8) = 1 / 32768 := by norm_num
  unfold meanR mean
  rw [sum_rows]
  simp only [c32768_eq, c4096_eq, c8_eq, zero_eq, zero_add, Ideal.div_coe h8, Ideal.div_coe h4096,
    Ideal.div_coe h32768]
  rw [← sum_mul_coe _ _ (by norm_num : (0 : ℝ) ≤ 1 / 4096), mul_assoc, ← EReal.coe_mul, e]

/-! ## The three results -/

theorem completeR_eq (A P : Pts.Idx → EReal) : completeR A P = complete A P := by
  rw [completeR, complete, meanR_eq]
  congr 1
  funext i
  simp only [completeRows, rowMin, sqrt_inf]
  exact Finset.inf_congr rfl fun m _ => DR_eq A P (i 0) (i 1) m

theorem accuracyR_eq (A P : Pts.Idx → EReal) : accuracyR A P = accuracy A P := by
  rw [accuracyR, accuracy, meanR_eq]
  congr 1
  funext i
  simp only [accuracyRows, colMin, sqrt_inf]
  exact Finset.inf_congr rfl fun n _ => DR_eq A P (i 0) n (i 1)

theorem chamferR_eq (A P : Pts.Idx → EReal) : chamferR A P = chamfer A P := by
  rw [chamferR, chamfer, completeR_eq, accuracyR_eq]

end Cert.Chamfer

end
-- ==== Proof.lean ====
/-
  The certificate of a Chamfer-loss kernel against its array-program reference.

  Both programs take 8 batches of 4096 target points and 4096 predicted points of ℝ³ and return three numbers: the mean over
  all predicted points of the distance to the nearest target point of the batch ("accuracy"), the mean over all target
  points of the distance to the nearest predicted point ("complete"), and half their sum. The distance is the square root of
  the squared distance ‖a‖² + ‖p‖² − 2⟨a, p⟩ clamped at zero.

  The kernel sweeps 1024 × 1024 tiles of squared distances, keeps running minima of each row and each column in two
  accumulators, takes the square root only of the final minima, and its host part divides one sum over all 32768 entries by
  32768. The reference takes the square root of every distance before the minima and averages first over the points, then
  over the batches. Over the extended reals the two agree for EVERY input: the square root is monotone, so it commutes with
  a minimum; a minimum over 4096 indices is the minimum of the minima over four blocks of 1024, from +∞; and multiplying by
  the nonnegative reals 1/4096 and 1/8 distributes over any sum of extended reals. No finiteness of the inputs is used.

  The frames of both printed kernels are the generated ones; the reference's frame is its generated run; the ideal pass
  rewrote nothing, so the kernel's idealization is its own text.
-/
import proofs.«156787_j1924145348887_2_alg».proof.Defs
import proofs.«156787_j1924145348887_2_alg».proof.Proof.Gen.Kernel
import proofs.«156787_j1924145348887_2_alg».proof.Proof.Gen.Kernel.Frame
import proofs.«156787_j1924145348887_2_alg».proof.Proof.Gen.KernelIdeal
import proofs.«156787_j1924145348887_2_alg».proof.Proof.Gen.KernelIdeal.Frame
import proofs.«156787_j1924145348887_2_alg».proof.Proof.Gen.ReferenceIdeal
import proofs.«156787_j1924145348887_2_alg».proof.Proof.Gen.ReferenceIdeal.Run
import proofs.«156787_j1924145348887_2_alg».proof.Proof.Gen.ReferenceIdeal.Read
import proofs.«156787_j1924145348887_2_alg».proof.Proof.Gen.Pre_finite_inputs
import proofs.«156787_j1924145348887_2_alg».proof.Proof.Result
import proofs.«156787_j1924145348887_2_alg».proof.Proof.RefValue
import proofs.«156787_j1924145348887_2_alg».proof.Proof.ChamferAlgebra2

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2)
    (Cert.ReferenceIdeal.Value.run (F := Ideal) m ρ)

/-- Both runs end with the accuracy, the complete and the Chamfer value of the same argument arrays: the kernel's by its
    accumulators' invariant, the reference's by reading its operations one at a time and exchanging the square root with
    the minima and the two-stage mean with the flat one. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c _ => Cert.Chamfer.accuracy (Cert.KernelIdeal.Inv.A m c) (Cert.KernelIdeal.Inv.P m c),
    fun c _ => Cert.Chamfer.complete (Cert.KernelIdeal.Inv.A m c) (Cert.KernelIdeal.Inv.P m c),
    fun c _ => Cert.Chamfer.chamfer (Cert.KernelIdeal.Inv.A m c) (Cert.KernelIdeal.Inv.P m c),
    Cert.KernelIdeal.Result.run m ρ, ?_⟩
  refine (θ_run Cert.ReferenceIdeal.defs _ _).mono (fun _ h c => ?_) (Cert.ReferenceIdeal.Value.run (F := Ideal) m' ρ')
  obtain ⟨h27, h25, h29, ha0, ha1⟩ := h c
  refine ⟨h27.trans ?_, h25.trans ?_, h29.trans ?_, ha0, ha1⟩
  · rw [Cert.ReferenceIdeal.Read.val_main_v27_eq, Cert.ReferenceIdeal.RefValue.ref_accuracy, Cert.Chamfer.accuracyR_eq,
      (hagree c).1, (hagree c).2]
    rfl
  · rw [Cert.ReferenceIdeal.Read.val_main_v25_eq, Cert.ReferenceIdeal.RefValue.ref_complete, Cert.Chamfer.completeR_eq,
      (hagree c).1, (hagree c).2]
    rfl
  · rw [Cert.ReferenceIdeal.Read.val_main_v29_eq, Cert.ReferenceIdeal.RefValue.ref_chamfer, Cert.Chamfer.chamferR_eq,
      (hagree c).1, (hagree c).2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
